-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S1x1x128 : Shape := ⟨3, ![1, 1, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S1x1x128 : S_.BroadcastsInDim S1x1x128 (![] : Fin 0 → Fin S1x1x128.rank)
  reducesTo_S1x1x128_S_d0_1_2 : S1x1x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S1x1x128 1) : IVec S_ 1 :=
  let main_c_5 : IVec S_ 1 := constantI S_ 1 1#1
  let main_v17 : IVec S_ 1 := (fun x v => Host.reduce IntOp.andi x v reducesTo_S1x1x128_S_d0_1_2 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S1x1x128 .f32) (main_arg4 : FVec F S1x1x128 .f32) (main_arg5 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S1x1x128 .f32 := Host.absf main_arg3
  let main_cst_2 : FVec F S_ .f32 := constant S_ .f32 0x7F800000#32
  let main_v10 : FVec F S1x1x128 .f32 := broadcastInDim S1x1x128 ![] bcast_S_S1x1x128 main_cst_2
  let main_v11 : IVec S1x1x128 1 := cmpf .olt main_v9 main_v10
  let main_c_3 : IVec S_ 1 := constantI S_ 1 1#1
  let main_v12 : IVec S_ 1 := (fun x v => Host.reduce IntOp.andi x v reducesTo_S1x1x128_S_d0_1_2 h_S_) main_v11 main_c_3
  let main_v13 : IVec S_ 1 := andi main_v8 main_v12
  let main_v14 : FVec F S1x1x128 .f32 := Host.absf main_arg4
  let main_cst_4 : FVec F S_ .f32 := constant S_ .f32 0x7F800000#32
  let main_v15 : FVec F S1x1x128 .f32 := broadcastInDim S1x1x128 ![] bcast_S_S1x1x128 main_cst_4
  let main_v16 : IVec S1x1x128 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S1x1x128 : Shape := ⟨3, ![1, 1, 128]⟩
abbrev S128 : Shape := ⟨1, ![128]⟩
abbrev S1x128 : Shape := ⟨2, ![1, 128]⟩
abbrev S100000x128 : Shape := ⟨2, ![100000, 128]⟩
abbrev S100000x1 : Shape := ⟨2, ![100000, 1]⟩
abbrev S10000x256 : Shape := ⟨2, ![10000, 256]⟩
abbrev S10000x128 : Shape := ⟨2, ![10000, 128]⟩
abbrev S10000x1 : Shape := ⟨2, ![10000, 1]⟩
abbrev S10000 : Shape := ⟨1, ![10000]⟩
abbrev S100000x1x128 : Shape := ⟨3, ![100000, 1, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x1x128 : Shape := ⟨3, ![1700000, 1, 128]⟩
abbrev S1700000x1x1 : Shape := ⟨3, ![1700000, 1, 1]⟩

abbrev nBuf : Space → Nat
  | .hbm => 100
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S1x1x128, .f32⟩
  | .hbm, ⟨4, _⟩ => ⟨S1x1x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S100000x128, .f32⟩
  | .hbm, ⟨9, _⟩ => ⟨S100000x1, .f32⟩
  | .hbm, ⟨10, _⟩ => ⟨S100000x1, .f32⟩
  | .hbm, ⟨11, _⟩ => ⟨S100000x1x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000, .i32⟩
  | .hbm, ⟨17, _⟩ => ⟨S1700000, .i32⟩
  | .hbm, ⟨18, _⟩ => ⟨S1700000, .i32⟩
  | .hbm, ⟨19, _⟩ => ⟨S1600000, .i1⟩
  | .hbm, ⟨20, _⟩ => ⟨S_, .i1⟩
  | .hbm, ⟨21, _⟩ => ⟨S100000, .i1⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000x1, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x1, .f32⟩
  | .hbm, ⟨41, _⟩ => ⟨S1700000x1, .f32⟩
  | .hbm, ⟨42, _⟩ => ⟨S_, .f32⟩
  | .hbm, ⟨43, _⟩ => ⟨S_, .f32⟩
  | .hbm, ⟨44, _⟩ => ⟨S1700000x1, .f32⟩
  | .hbm, ⟨45, _⟩ => ⟨S1700000x1, .i1⟩
  | .hbm, ⟨46, _⟩ => ⟨S_, .f32⟩
  | .hbm, ⟨47, _⟩ => ⟨S1700000x1, .f32⟩
  | .hbm, ⟨48, _⟩ => ⟨S1700000x1, .f32⟩
  | .hbm, ⟨49, _⟩ => ⟨S1700000x1, .f32⟩
  | .hbm, ⟨50, _⟩ => ⟨S1700000x1, .i1⟩
  | .hbm, ⟨51, _⟩ => ⟨S_, .f32⟩
  | .hbm, ⟨52, _⟩ => ⟨S_, .f32⟩
  | .hbm, ⟨53, _⟩ => ⟨S1700000x1, .f32⟩
  | .hbm, ⟨54, _⟩ => ⟨S1700000x1, .f32⟩
  | .hbm, ⟨55, _⟩ => ⟨S_, .f32⟩
  | .hbm, ⟨56, _⟩ => ⟨S_, .f32⟩
  | .hbm, ⟨57, _⟩ => ⟨S1700000x1, .f32⟩
  | .hbm, ⟨58, _⟩ => ⟨S1700000x1, .f32⟩
  | .hbm, ⟨59, _⟩ => ⟨S1700000x1, .f32⟩
  | .hbm, ⟨60, _⟩ => ⟨S1700000x1, .i1⟩
  | .hbm, ⟨61, _⟩ => ⟨S1700000x1, .f32⟩
  | .hbm, ⟨62, _⟩ => ⟨S1700000x1, .f32⟩
  | .hbm, ⟨63, _⟩ => ⟨S_, .f32⟩
  | .hbm, ⟨64, _⟩ => ⟨S100000x1, .f32⟩
  | .hbm, ⟨65, _⟩ => ⟨S1700000x1, .i32⟩
  | .hbm, ⟨66, _⟩ => ⟨S100000x1, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x1, .f32⟩
  | .hbm, ⟨76, _⟩ => ⟨S_, .f32⟩
  | .hbm, ⟨77, _⟩ => ⟨S1700000x1, .f32⟩
  | .hbm, ⟨78, _⟩ => ⟨S1700000x1, .f32⟩
  | .hbm, ⟨79, _⟩ => ⟨S1700000x1, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x1x128, .f32⟩
  | .hbm, ⟨89, _⟩ => ⟨S1700000x1x1, .f32⟩
  | .hbm, ⟨90, _⟩ => ⟨S1700000x1x128, .f32⟩
  | .hbm, ⟨91, _⟩ => ⟨S1700000x1x128, .f32⟩
  | .hbm, ⟨92, _⟩ => ⟨S_, .f32⟩
  | .hbm, ⟨93, _⟩ => ⟨S100000x1x128, .f32⟩
  | .hbm, ⟨94, _⟩ => ⟨S1700000x1, .i32⟩
  | .hbm, ⟨95, _⟩ => ⟨S100000x1x128, .f32⟩
  | .hbm, ⟨96, _⟩ => ⟨S100000x128, .f32⟩
  | .hbm, ⟨97, _⟩ => ⟨S1x128, .f32⟩
  | .hbm, ⟨98, _⟩ => ⟨S100000x128, .f32⟩
  | .hbm, ⟨99, _⟩ => ⟨S100000x128, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S1x128, .f32⟩
  | .local _ .vmem, ⟨4, _⟩ => ⟨S1x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x1, .f32⟩
  | .local _ .vmem, ⟨10, _⟩ => ⟨S10000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_call1_v0 : Ref sig .tc := ⟨.hbm, 52, rfl⟩
abbrev main_call1_v1 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_7 : Ref sig .tc := ⟨.hbm, 67, rfl⟩
abbrev main_v42 : Ref sig .tc := ⟨.hbm, 68, rfl⟩
abbrev main_v43 : Ref sig .tc := ⟨.hbm, 69, rfl⟩
abbrev main_c_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x1x128_S1x128 : S1x1x128.ShapeCasts S1x128
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S100000x128_S100000x1x128 : S100000x128.ShapeCasts S100000x1x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S1700000x1 : S_.BroadcastsInDim S1700000x1 (![] : Fin 0 → Fin S1700000x1.rank)
  reducesTo_S1700000x1_S_d0_1 : S1700000x1.ReducesTo [0, 1] S_
  h_S_ : 0 < S_.numel
  bcast_S_S100000x1 : S_.BroadcastsInDim S100000x1 (![] : Fin 0 → Fin S100000x1.rank)
  bcast_S1700000x1_S1700000x1x1_0_1 : S1700000x1.BroadcastsInDim S1700000x1x1 (![0, 1] : Fin 2 → Fin S1700000x1x1.rank)
  bcast_S1700000x1x1_S1700000x1x128_0_1_2 : S1700000x1x1.BroadcastsInDim S1700000x1x128 (![0, 1, 2] : Fin 3 → Fin S1700000x1x128.rank)
  bcast_S_S100000x1x128 : S_.BroadcastsInDim S100000x1x128 (![] : Fin 0 → Fin S100000x1x128.rank)
  shapeCasts_S100000x1x128_S100000x128 : S100000x1x128.ShapeCasts S100000x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S10000x256_S256x128_S10000x128_1_0_0_1_n_n_wf : DotDims.WF S10000x256 S256x128 S10000x128 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  gather_S100000x1x128_S1700000x1_S1700000x1x128_12_0_n_n_0_1_11128_wf : GatherDims.WF S100000x1x128 S1700000x1 S1700000x1x128 [1, 2] [0] [] [0] [] 1 ![1, 1, 128]
  scatter_S100000x1x128_S1700000x1_S1700000x1x128_12_0_0_1_wf : ScatterDims.WF S100000x1x128 S1700000x1 S1700000x1x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x1.size a ≤ S100000x1.size a
  hwx0_5 : ∀ i : grid0.Coords, EltTy.bits .f32 = 32 ∨ (Rect.block (s := S100000x1) S10000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x1.size a ≤ S100000x1.size a
  hwx0_6 : ∀ i : grid0.Coords, EltTy.bits .f32 = 32 ∨ (Rect.block (s := S100000x1) S10000x1.size (cc0_transform_6 i) (hinb0_6 i)).WholeWords (EltTy.packing .f32)

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf
def gather_S100000x1x128_S1700000x1_S1700000x1x128_12_0_n_n_0_1_11128 : GatherDims S100000x1x128 S1700000x1 S1700000x1x128 where
  offsetDims := [1, 2]
  collapsedSliceDims := [0]
  operandBatchingDims := []
  startIndicesBatchingDims := []
  startIndexMap := [0]
  indexVectorDim := 1
  sliceSizes := ![1, 1, 128]
  wf := gather_S100000x1x128_S1700000x1_S1700000x1x128_12_0_n_n_0_1_11128_wf
def scatter_S100000x1x128_S1700000x1_S1700000x1x128_12_0_0_1 : ScatterDims S100000x1x128 S1700000x1 S1700000x1x128 where
  updateWindowDims := [1, 2]
  insertedWindowDims := [0]
  scatterDimsToOperandDims := [0]
  indexVectorDim := 1
  wf := scatter_S100000x1x128_S1700000x1_S1700000x1x128_12_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S10000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S10000x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S10000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S1x1x128 : Shape := ⟨3, ![1, 1, 128]⟩
abbrev S128 : Shape := ⟨1, ![128]⟩
abbrev S100000x128 : Shape := ⟨2, ![100000, 128]⟩
abbrev S100000x1x128 : Shape := ⟨3, ![100000, 1, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S100000x1 : Shape := ⟨2, ![100000, 1]⟩
abbrev S1700000x1 : Shape := ⟨2, ![1700000, 1]⟩
abbrev S1700000x1x128 : Shape := ⟨3, ![1700000, 1, 128]⟩
abbrev S1700000x1x1 : Shape := ⟨3, ![1700000, 1, 1]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S1x1x128, .f32⟩
  | .hbm, ⟨4, _⟩ => ⟨S1x1x128, .f32⟩
  | .hbm, ⟨5, _⟩ => ⟨S128, .f32⟩
  | .hbm, ⟨6, _⟩ => ⟨S100000x128, .f32⟩
  | .hbm, ⟨7, _⟩ => ⟨S100000x1x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S1600000, .i1⟩
  | .hbm, ⟨16, _⟩ => ⟨S_, .i1⟩
  | .hbm, ⟨17, _⟩ => ⟨S100000, .i1⟩
  | .hbm, ⟨18, _⟩ => ⟨S1700000, .i1⟩
  | .hbm, ⟨19, _⟩ => ⟨S100000x1x128, .f32⟩
  | .hbm, ⟨20, _⟩ => ⟨S100000x1x128, .f32⟩
  | .hbm, ⟨21, _⟩ => ⟨S_, .f32⟩
  | .hbm, ⟨22, _⟩ => ⟨S100000x1, .f32⟩
  | .hbm, ⟨23, _⟩ => ⟨S100000x1x128, .f32⟩
  | .hbm, ⟨24, _⟩ => ⟨S100000x1x128, .f32⟩
  | .hbm, ⟨25, _⟩ => ⟨S_, .f32⟩
  | .hbm, ⟨26, _⟩ => ⟨S100000x1, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000x1, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000x1, .f32⟩
  | .hbm, ⟨45, _⟩ => ⟨S1700000x1, .f32⟩
  | .hbm, ⟨46, _⟩ => ⟨S_, .f32⟩
  | .hbm, ⟨47, _⟩ => ⟨S_, .f32⟩
  | .hbm, ⟨48, _⟩ => ⟨S1700000x1, .f32⟩
  | .hbm, ⟨49, _⟩ => ⟨S1700000x1, .i1⟩
  | .hbm, ⟨50, _⟩ => ⟨S_, .f32⟩
  | .hbm, ⟨51, _⟩ => ⟨S1700000x1, .f32⟩
  | .hbm, ⟨52, _⟩ => ⟨S1700000x1, .f32⟩
  | .hbm, ⟨53, _⟩ => ⟨S1700000x1, .f32⟩
  | .hbm, ⟨54, _⟩ => ⟨S1700000x1, .i1⟩
  | .hbm, ⟨55, _⟩ => ⟨S_, .f32⟩
  | .hbm, ⟨56, _⟩ => ⟨S_, .f32⟩
  | .hbm, ⟨57, _⟩ => ⟨S1700000x1, .f32⟩
  | .hbm, ⟨58, _⟩ => ⟨S1700000x1, .f32⟩
  | .hbm, ⟨59, _⟩ => ⟨S_, .f32⟩
  | .hbm, ⟨60, _⟩ => ⟨S_, .f32⟩
  | .hbm, ⟨61, _⟩ => ⟨S1700000x1, .f32⟩
  | .hbm, ⟨62, _⟩ => ⟨S1700000x1, .f32⟩
  | .hbm, ⟨63, _⟩ => ⟨S1700000x1, .f32⟩
  | .hbm, ⟨64, _⟩ => ⟨S1700000x1, .i1⟩
  | .hbm, ⟨65, _⟩ => ⟨S1700000x1, .f32⟩
  | .hbm, ⟨66, _⟩ => ⟨S1700000x1, .f32⟩
  | .hbm, ⟨67, _⟩ => ⟨S_, .f32⟩
  | .hbm, ⟨68, _⟩ => ⟨S100000x1, .f32⟩
  | .hbm, ⟨69, _⟩ => ⟨S1700000x1, .i32⟩
  | .hbm, ⟨70, _⟩ => ⟨S100000x1, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x1, .f32⟩
  | .hbm, ⟨80, _⟩ => ⟨S_, .f32⟩
  | .hbm, ⟨81, _⟩ => ⟨S1700000x1, .f32⟩
  | .hbm, ⟨82, _⟩ => ⟨S1700000x1, .f32⟩
  | .hbm, ⟨83, _⟩ => ⟨S1700000x1, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000x1x128, .f32⟩
  | .hbm, ⟨93, _⟩ => ⟨S1700000x1x1, .f32⟩
  | .hbm, ⟨94, _⟩ => ⟨S1700000x1x128, .f32⟩
  | .hbm, ⟨95, _⟩ => ⟨S1700000x1x128, .f32⟩
  | .hbm, ⟨96, _⟩ => ⟨S_, .f32⟩
  | .hbm, ⟨97, _⟩ => ⟨S100000x1x128, .f32⟩
  | .hbm, ⟨98, _⟩ => ⟨S1700000x1, .i32⟩
  | .hbm, ⟨99, _⟩ => ⟨S100000x1x128, .f32⟩
  | .hbm, ⟨100, _⟩ => ⟨S100000x128, .f32⟩
  | .hbm, ⟨101, _⟩ => ⟨S1x128, .f32⟩
  | .hbm, ⟨102, _⟩ => ⟨S100000x128, .f32⟩
  | .hbm, ⟨103, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_c_13 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  shapeCasts_S100000x128_S100000x1x128 : S100000x128.ShapeCasts S100000x1x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1x1x128_S100000x1x128_0_1_2 : S1x1x128.BroadcastsInDim S100000x1x128 (![0, 1, 2] : Fin 3 → Fin S100000x1x128.rank)
  reducesTo_S100000x1x128_S100000x1_d2 : S100000x1x128.ReducesTo [2] S100000x1
  h_S_ : 0 < S_.numel
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S1700000x1 : S_.BroadcastsInDim S1700000x1 (![] : Fin 0 → Fin S1700000x1.rank)
  reducesTo_S1700000x1_S_d0_1 : S1700000x1.ReducesTo [0, 1] S_
  bcast_S_S100000x1 : S_.BroadcastsInDim S100000x1 (![] : Fin 0 → Fin S100000x1.rank)
  bcast_S1700000x1_S1700000x1x1_0_1 : S1700000x1.BroadcastsInDim S1700000x1x1 (![0, 1] : Fin 2 → Fin S1700000x1x1.rank)
  bcast_S1700000x1x1_S1700000x1x128_0_1_2 : S1700000x1x1.BroadcastsInDim S1700000x1x128 (![0, 1, 2] : Fin 3 → Fin S1700000x1x128.rank)
  bcast_S_S100000x1x128 : S_.BroadcastsInDim S100000x1x128 (![] : Fin 0 → Fin S100000x1x128.rank)
  shapeCasts_S100000x1x128_S100000x128 : S100000x1x128.ShapeCasts S100000x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  gather_S100000x1x128_S1700000x1_S1700000x1x128_12_0_n_n_0_1_11128_wf : GatherDims.WF S100000x1x128 S1700000x1 S1700000x1x128 [1, 2] [0] [] [0] [] 1 ![1, 1, 128]
  scatter_S100000x1x128_S1700000x1_S1700000x1x128_12_0_0_1_wf : ScatterDims.WF S100000x1x128 S1700000x1 S1700000x1x128 [1, 2] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf
def gather_S100000x1x128_S1700000x1_S1700000x1x128_12_0_n_n_0_1_11128 : GatherDims S100000x1x128 S1700000x1 S1700000x1x128 where
  offsetDims := [1, 2]
  collapsedSliceDims := [0]
  operandBatchingDims := []
  startIndicesBatchingDims := []
  startIndexMap := [0]
  indexVectorDim := 1
  sliceSizes := ![1, 1, 128]
  wf := gather_S100000x1x128_S1700000x1_S1700000x1x128_12_0_n_n_0_1_11128_wf
def scatter_S100000x1x128_S1700000x1_S1700000x1x128_12_0_0_1 : ScatterDims S100000x1x128 S1700000x1 S1700000x1x128 where
  updateWindowDims := [1, 2]
  insertedWindowDims := [0]
  scatterDimsToOperandDims := [0]
  indexVectorDim := 1
  wf := scatter_S100000x1x128_S1700000x1_S1700000x1x128_12_0_0_1_wf

class Facts : Prop extends Facts₀ where

variable [Facts]
-- ==== Proof.KernelFrame.lean ====
/-
  The frame of the projection kernel's program: its @main is two host reshapes, one grid of ten points over
  blocks of 10000 rows, and a straight line of host operations after it. At every grid point the body reads its
  four input blocks (a block of rows of x, the whole weight matrix, the two attention rows) and overwrites its
  three output blocks whole (the projected rows and the two logit columns), so each output array ends as the
  blocks the points wrote and every argument array ends as launched: the host operations write only their own
  result buffers, none of which is an argument or an array of the grid.
-/
import proofs.«112865_j88656714924157_1_alg».proof.Proof.Gen.Kernel.Launch
import proofs.«112865_j88656714924157_1_alg».proof.Proof.Gen.Kernel.Skeleton
import proofs.«112865_j88656714924157_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the grid -/

/-- The buffer contents when the grid is entered: the launch contents after the two reshapes of the attention rows. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The host operations after the grid, stretch by stretch (the two outlined functions are stretches of their own). -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the reshapes, the grid, and then the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every buffer a later operation writes: its own result. -/
def tailResults : List (Ref sig .tc) := [main_v3, main_v4, main_v5, main_v6, main_v7, main_v8, main_v9, main_v10, main_v11, main_c, main_v12, main_v13, main_c_0, main_v14, main_v15, main_c_1, main_v16, main_v17, main_v18, main_v19, main_v20, main_c_2, main_v21, main_v22, main_c_3, main_v23, main_v24, main_v25, main_v26, main_v27, main_v28, main_cst, main_call0_cst, main_call0_v0, main_call0_v1, main_call0_v2, main_call0_v3, main_call0_v4, main_v29, main_v30, main_cst_4, main_call1_v0, main_call1_v1, main_v31, main_cst_5, main_v32, main_v33, main_v34, main_v35, main_v36, main_v37, main_v38, main_cst_6, main_v39, main_v40, main_v41, main_c_7, main_v42, main_v43, main_c_8, main_v44, main_v45, main_v46, main_v47, main_v48, main_cst_9, main_v49, main_v50, main_v51, main_c_10, main_v52, main_v53, main_c_11, main_v54, main_v55, main_v56, main_v57, main_v58, main_v59, main_v60, main_v61, main_cst_12, main_v62, main_v63, main_v64, main_v65, main_v66, main_v67, main_v68]

theorem writes_of_mem {y : Ref sig .tc} (h : y ∈ tailResults) :
    ({Proc.devRef (τ := τ) .tc y} : Finset (DevRef τ sig)) ⊆ (tailResults.map (Proc.devRef (τ := τ) .tc)).toFinset :=
  Finset.singleton_subset_iff.mpr (List.mem_toFinset.mpr (List.mem_map_of_mem h))

theorem writes1 : (hostOps1 : List (HloOp τ sig (Elt F))).Forall fun op => op.writes ⊆ (tailResults.map (Proc.devRef (τ := τ) .tc)).toFinset := by
  simp only [List.Forall]; repeat' apply And.intro
  all_goals exact writes_of_mem (by decide)
theorem writes1_1 : (hostOps1_1 : List (HloOp τ sig (Elt F))).Forall fun op => op.writes ⊆ (tailResults.map (Proc.devRef (τ := τ) .tc)).toFinset := by
  simp only [List.Forall]; repeat' apply And.intro
  all_goals exact writes_of_mem (by decide)
theorem writes1_2 : (hostOps1_2 : List (HloOp τ sig (Elt F))).Forall fun op => op.writes ⊆ (tailResults.map (Proc.devRef (τ := τ) .tc)).toFinset := by
  simp only [List.Forall]; repeat' apply And.intro
  all_goals exact writes_of_mem (by decide)
theorem writes1_3 : (hostOps1_3 : List (HloOp τ sig (Elt F))).Forall fun op => op.writes ⊆ (tailResults.map (Proc.devRef (τ := τ) .tc)).toFinset := by
  simp only [List.Forall]; repeat' apply And.intro
  all_goals exact writes_of_mem (by decide)
theorem writes1_4 : (hostOps1_4 : List (HloOp τ sig (Elt F))).Forall fun op => op.writes ⊆ (tailResults.map (Proc.devRef (τ := τ) .tc)).toFinset := by
  simp only [List.Forall]; repeat' apply And.intro
  all_goals exact writes_of_mem (by decide)

/-- A later operation writes only result buffers of the later operations. -/
theorem tail_writes : ∀ ops ∈ (tailOps : List (List (HloOp τ sig (Elt F)))), ∀ op ∈ ops,
    op.writes ⊆ (tailResults.map (Proc.devRef (τ := τ) .tc)).toFinset := by
  intro ops hops op hop
  simp only [List.mem_cons, List.mem_nil_iff, or_false] at hops
  rcases hops with rfl | rfl | rfl | rfl | rfl
  · exact List.forall_iff_forall_mem.mp writes1 op hop
  · exact List.forall_iff_forall_mem.mp writes1_1 op hop
  · exact List.forall_iff_forall_mem.mp writes1_2 op hop
  · exact List.forall_iff_forall_mem.mp writes1_3 op hop
  · exact List.forall_iff_forall_mem.mp writes1_4 op hop

theorem tail_writes_flat : ((tailOps : List (List (HloOp τ sig (Elt F)))).flatten).Forall fun op =>
    op.writes ⊆ (tailResults.map (Proc.devRef (τ := τ) .tc)).toFinset :=
  List.forall_iff_forall_mem.mpr fun op hop => by
    obtain ⟨ops, hops, h⟩ := List.mem_flatten.mp hop
    exact tail_writes ops hops op h

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- No array of the grid is a result buffer of a later operation. -/
theorem arr_not_result : ∀ w : Fin 7, Pipeline.arrRef spec0 w ∉ tailResults := by decide

theorem sfx_keeps : ∀ ops ∈ (tailOps : List (List (HloOp τ sig (Elt F)))), ∀ op ∈ ops,
    ∀ w, Proc.devRef .tc (Pipeline.arrRef spec0 w) ∉ op.writes := by
  intro ops hops op hop w hmem
  obtain ⟨y, hy, he⟩ := List.mem_map.mp (List.mem_toFinset.mp (tail_writes ops hops op hop hmem))
  exact arr_not_result w (Proc.devRef_injective _ he ▸ hy)

/-- The reshapes before the grid write none of these buffers. -/
theorem V_of_not_written (c : Dev nD) (b : Ref sig .tc) (hb : b ≠ main_v0 ∧ b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact ⟨StableHlo.devRef_ne_of_ne hb.1, StableHlo.devRef_ne_of_ne hb.2⟩))

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)

/-- A buffer that is neither an array of the grid nor a result of a later operation ends as the grid found it. -/
theorem W_of_not_written (dats : (p : Fin _) → (c : Dev nD) → Dat τ (Elt F) Unit ℕ (UR sig nD τ) ℕ (cfgs p) c) (c : Dev nD)
    (b : Ref sig .tc) (hb : b ∉ tailResults) (ha : ∀ w, Pipeline.arrRef spec0 w ≠ b) :
    Pipeline.afterTail₀ cfgs dats 0 (V0 m) tailOps c b = V m c b := by
  unfold Pipeline.afterTail₀
  rw [StableHlo.after_of_writes_sub (W := tailResults) (r := b) _ _ tail_writes_flat hb,
    Pipeline.withArrays_of_ne _ c (V0 m c) _ b ha]

/-! ## The blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves -/

abbrev rX : Rect S10000x256 := Rect.unit (s := S10000x256) ![0, 0] S10000x256.size inb_S10000x256_S10000x256_0_0
abbrev rW : Rect S256x128 := Rect.unit (s := S256x128) ![0, 0] S256x128.size inb_S256x128_S256x128_0_0
abbrev rA : Rect S1x128 := Rect.unit (s := S1x128) ![0, 0] S1x128.size inb_S1x128_S1x128_0_0
abbrev rP : Rect S10000x128 := Rect.unit (s := S10000x128) ![0, 0] S10000x128.size inb_S10000x128_S10000x128_0_0
abbrev rL : Rect S10000x1 := Rect.unit (s := S10000x1) ![0, 0] S10000x1.size inb_S10000x1_S10000x1_0_0

/-- The projected rows' buffer after the body: its one store, of the product of the two loaded blocks. -/
def outP (x0 : Vec F S10000x256 .f32) (x1 : Vec F S256x128 .f32) : Vec F S10000x128 .f32 :=
  View.canon [⟨rP, k0_pay1 (View.ld x0 rX) (View.ld x1 rW)⟩]
/-- The source logits' buffer after the body. -/
def outS (x0 : Vec F S10000x256 .f32) (x1 : Vec F S256x128 .f32) (x2 : Vec F S1x128 .f32) : Vec F S10000x1 .f32 :=
  View.canon [⟨rL, k0_pay2 (View.ld x0 rX) (View.ld x1 rW) (View.ld x2 rA)⟩]
/-- The destination logits' buffer after the body. -/
def outD (x0 : Vec F S10000x256 .f32) (x1 : Vec F S256x128 .f32) (x3 : Vec F S1x128 .f32) : Vec F S10000x1 .f32 :=
  View.canon [⟨rL, k0_pay3 (View.ld x0 rX) (View.ld x1 rW) (View.ld x3 rA)⟩]

theorem coverP (p0 : Vec F S10000x128 .f32) (y : S10000x128.Idx) :
    ∃ pc ∈ ([⟨rP, p0⟩] : List (View.Piece (Elt F) S10000x128 .f32)), y ∈ pc.1.set :=
  View.cover_of_tiled [⟨rP, p0⟩] S10000x128.size (by rfl) y
theorem coverL (p0 : Vec F S10000x1 .f32) (y : S10000x1.Idx) :
    ∃ pc ∈ ([⟨rL, p0⟩] : List (View.Piece (Elt F) S10000x1 .f32)), y ∈ pc.1.set :=
  View.cover_of_tiled [⟨rL, p0⟩] S10000x1.size (by rfl) y

set_option maxHeartbeats 4000000 in
/-- The body on whole staging buffers: the four inputs' stay as they were, each output's ends at its one store. -/
theorem sound_kernel (c : Dev nD) (E : Set ℕ) (i : grid0.Coords)
    (arg1 : Memref sig .tc .vmem S10000x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S10000x128 .f32) (harg5 : arg5.IsWhole) (arg6 : Memref sig .tc .vmem S10000x1 .f32) (harg6 : arg6.IsWhole)
    (arg7 : Memref sig .tc .vmem S10000x1 .f32) (harg7 : arg7.IsWhole)
    (x0 : Vec F S10000x256 .f32) (x1 : Vec F S256x128 .f32) (x2 : Vec F S1x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outP x0 x1) ∗ owns (c : Thread nD τ) arg6 fullShare (outS x0 x1 x2)
            ∗ owns (c : Thread nD τ) arg7 fullShare (outD x0 x1 x3)) -∗ K ⟨⟩))
      ⊢ wp frame (wpE (defs₀ (F := F)) Variants.none c none) E
          (cc0__proj_attn_kernel i arg1 harg1 arg2 harg2 arg3 harg3 arg4 harg4 arg5 harg5 arg6 harg6 arg7 harg7) K := by
  simp only [cc0__proj_attn_kernel_eq_skeleton]; unfold cc0__proj_attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverP _)
  isplitl [H5]
  · iexists _; isplitr
    swap; · iexact H5
    ipureintro
    exact View.read_writes_eq_canon _ _ _ (coverL _)
  iexists _; isplitr
  swap; · iexact H6
  ipureintro
  exact View.read_writes_eq_canon _ _ _ (coverL _)

/-! ## The proof data -/

/-- On core `c`: the arrays as the grid finds them; after the body at point `t` each input's buffer at its block and
    each output's at the body's store of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outP (iblk m c 0 t) (iblk m c 1 t)
    | ⟨5, _⟩ => outS (iblk m c 0 t) (iblk m c 1 t) (iblk m c 2 t)
    | ⟨6, _⟩ => outD (iblk m c 0 t) (iblk m c 1 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outP (iblk m c 0 t) (iblk m c 1 t) := by dsimp only [dats]
theorem after5 (c : Dev nD) (t : Fin cfg0.N) : (dats m 0 c).after 5 t = outS (iblk m c 0 t) (iblk m c 1 t) (iblk m c 2 t) := by dsimp only [dats]
theorem after6 (c : Dev nD) (t : Fin cfg0.N) : (dats m 0 c).after 6 t = outD (iblk m c 0 t) (iblk m c 1 t) (iblk m c 3 t) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the grid ends at what the points wrote back, and
    every other buffer as the later operations leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans ((((dats m) 0 c).arrAt_in 0 rfl _).trans ((A_eq m c 0).trans (V_main_arg0 m c))),
     ((h c).2 main_arg1 (Pipeline.mem_restRefs_of main_arg1 (by decide) (by decide))).trans
       ((W_of_not_written m (dats m) c main_arg1 (by decide) (by decide)).trans (V_main_arg1 m c)),
     ((h c).1 1).trans ((((dats m) 0 c).arrAt_in 1 rfl _).trans ((A_eq m c 1).trans (V_main_arg2 m c))),
     ((h c).2 main_arg3 (Pipeline.mem_restRefs_of main_arg3 (by decide) (by decide))).trans
       ((W_of_not_written m (dats m) c main_arg3 (by decide) (by decide)).trans (V_main_arg3 m c)),
     ((h c).2 main_arg4 (Pipeline.mem_restRefs_of main_arg4 (by decide) (by decide))).trans
       ((W_of_not_written m (dats m) c main_arg4 (by decide) (by decide)).trans (V_main_arg4 m c)),
     ((h c).2 main_arg5 (Pipeline.mem_restRefs_of main_arg5 (by decide) (by decide))).trans
       ((W_of_not_written m (dats m) c main_arg5 (by decide) (by decide)).trans (V_main_arg5 m c))⟩) (run_main m ρ)

end Cert.Kernel.Frame

end
-- ==== Proof.KernelIdealFrame.lean ====
/-
  The frame of the projection kernel's program: its @main is two host reshapes, one grid of ten points over
  blocks of 10000 rows, and a straight line of host operations after it. At every grid point the body reads its
  four input blocks (a block of rows of x, the whole weight matrix, the two attention rows) and overwrites its
  three output blocks whole (the projected rows and the two logit columns), so each output array ends as the
  blocks the points wrote and every argument array ends as launched: the host operations write only their own
  result buffers, none of which is an argument or an array of the grid.
-/
import proofs.«112865_j88656714924157_1_alg».proof.Proof.Gen.KernelIdeal.Launch
import proofs.«112865_j88656714924157_1_alg».proof.Proof.Gen.KernelIdeal.Skeleton
import proofs.«112865_j88656714924157_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the grid -/

/-- The buffer contents when the grid is entered: the launch contents after the two reshapes of the attention rows. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The host operations after the grid, stretch by stretch (the two outlined functions are stretches of their own). -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the reshapes, the grid, and then the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every buffer a later operation writes: its own result. -/
def tailResults : List (Ref sig .tc) := [main_v3, main_v4, main_v5, main_v6, main_v7, main_v8, main_v9, main_v10, main_v11, main_c, main_v12, main_v13, main_c_0, main_v14, main_v15, main_c_1, main_v16, main_v17, main_v18, main_v19, main_v20, main_c_2, main_v21, main_v22, main_c_3, main_v23, main_v24, main_v25, main_v26, main_v27, main_v28, main_cst, main_call0_cst, main_call0_v0, main_call0_v1, main_call0_v2, main_call0_v3, main_call0_v4, main_v29, main_v30, main_cst_4, main_call1_v0, main_call1_v1, main_v31, main_cst_5, main_v32, main_v33, main_v34, main_v35, main_v36, main_v37, main_v38, main_cst_6, main_v39, main_v40, main_v41, main_c_7, main_v42, main_v43, main_c_8, main_v44, main_v45, main_v46, main_v47, main_v48, main_cst_9, main_v49, main_v50, main_v51, main_c_10, main_v52, main_v53, main_c_11, main_v54, main_v55, main_v56, main_v57, main_v58, main_v59, main_v60, main_v61, main_cst_12, main_v62, main_v63, main_v64, main_v65, main_v66, main_v67, main_v68]

theorem writes_of_mem {y : Ref sig .tc} (h : y ∈ tailResults) :
    ({Proc.devRef (τ := τ) .tc y} : Finset (DevRef τ sig)) ⊆ (tailResults.map (Proc.devRef (τ := τ) .tc)).toFinset :=
  Finset.singleton_subset_iff.mpr (List.mem_toFinset.mpr (List.mem_map_of_mem h))

theorem writes1 : (hostOps1 : List (HloOp τ sig (Elt F))).Forall fun op => op.writes ⊆ (tailResults.map (Proc.devRef (τ := τ) .tc)).toFinset := by
  simp only [List.Forall]; repeat' apply And.intro
  all_goals exact writes_of_mem (by decide)
theorem writes1_1 : (hostOps1_1 : List (HloOp τ sig (Elt F))).Forall fun op => op.writes ⊆ (tailResults.map (Proc.devRef (τ := τ) .tc)).toFinset := by
  simp only [List.Forall]; repeat' apply And.intro
  all_goals exact writes_of_mem (by decide)
theorem writes1_2 : (hostOps1_2 : List (HloOp τ sig (Elt F))).Forall fun op => op.writes ⊆ (tailResults.map (Proc.devRef (τ := τ) .tc)).toFinset := by
  simp only [List.Forall]; repeat' apply And.intro
  all_goals exact writes_of_mem (by decide)
theorem writes1_3 : (hostOps1_3 : List (HloOp τ sig (Elt F))).Forall fun op => op.writes ⊆ (tailResults.map (Proc.devRef (τ := τ) .tc)).toFinset := by
  simp only [List.Forall]; repeat' apply And.intro
  all_goals exact writes_of_mem (by decide)
theorem writes1_4 : (hostOps1_4 : List (HloOp τ sig (Elt F))).Forall fun op => op.writes ⊆ (tailResults.map (Proc.devRef (τ := τ) .tc)).toFinset := by
  simp only [List.Forall]; repeat' apply And.intro
  all_goals exact writes_of_mem (by decide)

/-- A later operation writes only result buffers of the later operations. -/
theorem tail_writes : ∀ ops ∈ (tailOps : List (List (HloOp τ sig (Elt F)))), ∀ op ∈ ops,
    op.writes ⊆ (tailResults.map (Proc.devRef (τ := τ) .tc)).toFinset := by
  intro ops hops op hop
  simp only [List.mem_cons, List.mem_nil_iff, or_false] at hops
  rcases hops with rfl | rfl | rfl | rfl | rfl
  · exact List.forall_iff_forall_mem.mp writes1 op hop
  · exact List.forall_iff_forall_mem.mp writes1_1 op hop
  · exact List.forall_iff_forall_mem.mp writes1_2 op hop
  · exact List.forall_iff_forall_mem.mp writes1_3 op hop
  · exact List.forall_iff_forall_mem.mp writes1_4 op hop

theorem tail_writes_flat : ((tailOps : List (List (HloOp τ sig (Elt F)))).flatten).Forall fun op =>
    op.writes ⊆ (tailResults.map (Proc.devRef (τ := τ) .tc)).toFinset :=
  List.forall_iff_forall_mem.mpr fun op hop => by
    obtain ⟨ops, hops, h⟩ := List.mem_flatten.mp hop
    exact tail_writes ops hops op h

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- No array of the grid is a result buffer of a later operation. -/
theorem arr_not_result : ∀ w : Fin 7, Pipeline.arrRef spec0 w ∉ tailResults := by decide

theorem sfx_keeps : ∀ ops ∈ (tailOps : List (List (HloOp τ sig (Elt F)))), ∀ op ∈ ops,
    ∀ w, Proc.devRef .tc (Pipeline.arrRef spec0 w) ∉ op.writes := by
  intro ops hops op hop w hmem
  obtain ⟨y, hy, he⟩ := List.mem_map.mp (List.mem_toFinset.mp (tail_writes ops hops op hop hmem))
  exact arr_not_result w (Proc.devRef_injective _ he ▸ hy)

/-- The reshapes before the grid write none of these buffers. -/
theorem V_of_not_written (c : Dev nD) (b : Ref sig .tc) (hb : b ≠ main_v0 ∧ b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact ⟨StableHlo.devRef_ne_of_ne hb.1, StableHlo.devRef_ne_of_ne hb.2⟩))

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)

/-- A buffer that is neither an array of the grid nor a result of a later operation ends as the grid found it. -/
theorem W_of_not_written (dats : (p : Fin _) → (c : Dev nD) → Dat τ (Elt F) Unit ℕ (UR sig nD τ) ℕ (cfgs p) c) (c : Dev nD)
    (b : Ref sig .tc) (hb : b ∉ tailResults) (ha : ∀ w, Pipeline.arrRef spec0 w ≠ b) :
    Pipeline.afterTail₀ cfgs dats 0 (V0 m) tailOps c b = V m c b := by
  unfold Pipeline.afterTail₀
  rw [StableHlo.after_of_writes_sub (W := tailResults) (r := b) _ _ tail_writes_flat hb,
    Pipeline.withArrays_of_ne _ c (V0 m c) _ b ha]

/-! ## The blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves -/

abbrev rX : Rect S10000x256 := Rect.unit (s := S10000x256) ![0, 0] S10000x256.size inb_S10000x256_S10000x256_0_0
abbrev rW : Rect S256x128 := Rect.unit (s := S256x128) ![0, 0] S256x128.size inb_S256x128_S256x128_0_0
abbrev rA : Rect S1x128 := Rect.unit (s := S1x128) ![0, 0] S1x128.size inb_S1x128_S1x128_0_0
abbrev rP : Rect S10000x128 := Rect.unit (s := S10000x128) ![0, 0] S10000x128.size inb_S10000x128_S10000x128_0_0
abbrev rL : Rect S10000x1 := Rect.unit (s := S10000x1) ![0, 0] S10000x1.size inb_S10000x1_S10000x1_0_0

/-- The projected rows' buffer after the body: its one store, of the product of the two loaded blocks. -/
def outP (x0 : Vec F S10000x256 .f32) (x1 : Vec F S256x128 .f32) : Vec F S10000x128 .f32 :=
  View.canon [⟨rP, k0_pay1 (View.ld x0 rX) (View.ld x1 rW)⟩]
/-- The source logits' buffer after the body. -/
def outS (x0 : Vec F S10000x256 .f32) (x1 : Vec F S256x128 .f32) (x2 : Vec F S1x128 .f32) : Vec F S10000x1 .f32 :=
  View.canon [⟨rL, k0_pay2 (View.ld x0 rX) (View.ld x1 rW) (View.ld x2 rA)⟩]
/-- The destination logits' buffer after the body. -/
def outD (x0 : Vec F S10000x256 .f32) (x1 : Vec F S256x128 .f32) (x3 : Vec F S1x128 .f32) : Vec F S10000x1 .f32 :=
  View.canon [⟨rL, k0_pay3 (View.ld x0 rX) (View.ld x1 rW) (View.ld x3 rA)⟩]

theorem coverP (p0 : Vec F S10000x128 .f32) (y : S10000x128.Idx) :
    ∃ pc ∈ ([⟨rP, p0⟩] : List (View.Piece (Elt F) S10000x128 .f32)), y ∈ pc.1.set :=
  View.cover_of_tiled [⟨rP, p0⟩] S10000x128.size (by rfl) y
theorem coverL (p0 : Vec F S10000x1 .f32) (y : S10000x1.Idx) :
    ∃ pc ∈ ([⟨rL, p0⟩] : List (View.Piece (Elt F) S10000x1 .f32)), y ∈ pc.1.set :=
  View.cover_of_tiled [⟨rL, p0⟩] S10000x1.size (by rfl) y

set_option maxHeartbeats 4000000 in
/-- The body on whole staging buffers: the four inputs' stay as they were, each output's ends at its one store. -/
theorem sound_kernel (c : Dev nD) (E : Set ℕ) (i : grid0.Coords)
    (arg1 : Memref sig .tc .vmem S10000x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S10000x128 .f32) (harg5 : arg5.IsWhole) (arg6 : Memref sig .tc .vmem S10000x1 .f32) (harg6 : arg6.IsWhole)
    (arg7 : Memref sig .tc .vmem S10000x1 .f32) (harg7 : arg7.IsWhole)
    (x0 : Vec F S10000x256 .f32) (x1 : Vec F S256x128 .f32) (x2 : Vec F S1x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outP x0 x1) ∗ owns (c : Thread nD τ) arg6 fullShare (outS x0 x1 x2)
            ∗ owns (c : Thread nD τ) arg7 fullShare (outD x0 x1 x3)) -∗ K ⟨⟩))
      ⊢ wp frame (wpE (defs₀ (F := F)) Variants.none c none) E
          (cc0__proj_attn_kernel i arg1 harg1 arg2 harg2 arg3 harg3 arg4 harg4 arg5 harg5 arg6 harg6 arg7 harg7) K := by
  simp only [cc0__proj_attn_kernel_eq_skeleton]; unfold cc0__proj_attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverP _)
  isplitl [H5]
  · iexists _; isplitr
    swap; · iexact H5
    ipureintro
    exact View.read_writes_eq_canon _ _ _ (coverL _)
  iexists _; isplitr
  swap; · iexact H6
  ipureintro
  exact View.read_writes_eq_canon _ _ _ (coverL _)

/-! ## The proof data -/

/-- On core `c`: the arrays as the grid finds them; after the body at point `t` each input's buffer at its block and
    each output's at the body's store of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outP (iblk m c 0 t) (iblk m c 1 t)
    | ⟨5, _⟩ => outS (iblk m c 0 t) (iblk m c 1 t) (iblk m c 2 t)
    | ⟨6, _⟩ => outD (iblk m c 0 t) (iblk m c 1 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outP (iblk m c 0 t) (iblk m c 1 t) := by dsimp only [dats]
theorem after5 (c : Dev nD) (t : Fin cfg0.N) : (dats m 0 c).after 5 t = outS (iblk m c 0 t) (iblk m c 1 t) (iblk m c 2 t) := by dsimp only [dats]
theorem after6 (c : Dev nD) (t : Fin cfg0.N) : (dats m 0 c).after 6 t = outD (iblk m c 0 t) (iblk m c 1 t) (iblk m c 3 t) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the grid ends at what the points wrote back, and
    every other buffer as the later operations leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans ((((dats m) 0 c).arrAt_in 0 rfl _).trans ((A_eq m c 0).trans (V_main_arg0 m c))),
     ((h c).2 main_arg1 (Pipeline.mem_restRefs_of main_arg1 (by decide) (by decide))).trans
       ((W_of_not_written m (dats m) c main_arg1 (by decide) (by decide)).trans (V_main_arg1 m c)),
     ((h c).1 1).trans ((((dats m) 0 c).arrAt_in 1 rfl _).trans ((A_eq m c 1).trans (V_main_arg2 m c))),
     ((h c).2 main_arg3 (Pipeline.mem_restRefs_of main_arg3 (by decide) (by decide))).trans
       ((W_of_not_written m (dats m) c main_arg3 (by decide) (by decide)).trans (V_main_arg3 m c)),
     ((h c).2 main_arg4 (Pipeline.mem_restRefs_of main_arg4 (by decide) (by decide))).trans
       ((W_of_not_written m (dats m) c main_arg4 (by decide) (by decide)).trans (V_main_arg4 m c)),
     ((h c).2 main_arg5 (Pipeline.mem_restRefs_of main_arg5 (by decide) (by decide))).trans
       ((W_of_not_written m (dats m) c main_arg5 (by decide) (by decide)).trans (V_main_arg5 m c))⟩) (run_main m ρ)

end Cert.KernelIdeal.Frame

end
-- ==== Proof.Spec.lean ====
/-
  The specification of the projection-and-logits stage, index by index, at the extended reals.

  For a feature matrix `x` (100000 × 256), a weight matrix `w` (256 × 128) and an attention row `a`
  (stored as 1 × 1 × 128):
    • `Gxp x w` is the matrix product: at (P, q) the sum over k of x(P, k) · w(k, q);
    • `Glogit x w a` is the column of attention logits: at (P, 0) the sum over the 128 lanes q of
      (Gxp x w)(P, q) · a(0, 0, q).
  Every index is built from literal coordinates, so that each reading lemma fires on coordinates of a
  literal `Fin` type.
-/
import proofs.«112865_j88656714924157_1_alg».proof.KernelIdeal
import Idealize.ShloMosaic.Lib.ValueIdx
import Idealize.ShloMosaic.PureOps.Ideal

noncomputable section

namespace Cert.Spec

open Idealize.ShloMosaic Idealize.ShloMosaic.ValueIdx
open scoped BigOperators

/-- The projected features: at (P, q), row P of `x` against column q of `w`. -/
def Gxp (x : FVec Ideal Cert.KernelIdeal.S100000x256 .f32) (w : FVec Ideal Cert.KernelIdeal.S256x128 .f32) :
    FVec Ideal Cert.KernelIdeal.S100000x128 .f32 :=
  fun j => ∑ k : Fin 256, x (ix2 (n0 := 100000) (j 0) k) * w (ix2 (n1 := 128) k (j 1))

/-- The attention logits as a column: at (P, ·), the lane sum of the projected row P weighted by `a`. -/
def Glogit (x : FVec Ideal Cert.KernelIdeal.S100000x256 .f32) (w : FVec Ideal Cert.KernelIdeal.S256x128 .f32)
    (a : FVec Ideal Cert.KernelIdeal.S1x1x128 .f32) : FVec Ideal Cert.KernelIdeal.S100000x1 .f32 :=
  fun j => ∑ q : Fin 128, Gxp x w (ix2 (n0 := 100000) (j 0) q) * a (ix3 (0 : Fin 1) (0 : Fin 1) q)

/-- `Gxp` read at (P, q). -/
theorem Gxp_apply (x : FVec Ideal Cert.KernelIdeal.S100000x256 .f32) (w : FVec Ideal Cert.KernelIdeal.S256x128 .f32)
    (P : Fin 100000) (q : Fin 128) :
    Gxp x w (ix2 P q) = ∑ k : Fin 256, x (ix2 P k) * w (ix2 k q) := rfl

/-- `Glogit` read at (P, u), whatever the unit coordinate u. -/
theorem Glogit_apply (x : FVec Ideal Cert.KernelIdeal.S100000x256 .f32) (w : FVec Ideal Cert.KernelIdeal.S256x128 .f32)
    (a : FVec Ideal Cert.KernelIdeal.S1x1x128 .f32) (P : Fin 100000) (u : Fin 1) :
    Glogit x w a (ix2 P u) = ∑ q : Fin 128, Gxp x w (ix2 P q) * a (ix3 (0 : Fin 1) (0 : Fin 1) q) := rfl

/-- `Glogit` read at (P, u) with the matrix product spelt out. -/
theorem Glogit_apply' (x : FVec Ideal Cert.KernelIdeal.S100000x256 .f32) (w : FVec Ideal Cert.KernelIdeal.S256x128 .f32)
    (a : FVec Ideal Cert.KernelIdeal.S1x1x128 .f32) (P : Fin 100000) (u : Fin 1) :
    Glogit x w a (ix2 P u)
      = ∑ q : Fin 128, (∑ k : Fin 256, x (ix2 P k) * w (ix2 k q)) * a (ix3 (0 : Fin 1) (0 : Fin 1) q) := rfl

end Cert.Spec

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.KernelPayload.lean ====
/-
  The kernel's three stored values read at an index, at the extended reals, for one block of 10000 rows.

  With `x0` the block of features (10000 × 256), `w` the weights (256 × 128) and `a` an attention row (1 × 128):
    • the first stored value is the block's matrix product: at (p, q) the sum over k of x0(p, k) · w(k, q)
      (the change to the sixteen-bit format is the identity here, and the product accumulates into zero);
    • the second and the third are a column: at (p, ·) the sum over the 128 lanes q of that product times a(0, q)
      (a row broadcast over the block, a pointwise product, a sum along the lanes, and the result kept as a column).
  Also: the attention row as the host hands it to the kernel, a 1 × 1 × 128 array read as 1 × 128.
-/
import proofs.«112865_j88656714924157_1_alg».proof.Proof.Spec
import proofs.«112865_j88656714924157_1_alg».proof.Proof.Gen.KernelIdeal.Skeleton
import proofs.«112865_j88656714924157_1_alg».proof.Proof.LibKeepdims
import Idealize.ShloMosaic.Lib.ValueLayout

noncomputable section

namespace Cert.KernelPayload

open Idealize.ShloMosaic Idealize.ShloMosaic.ValueIdx Cert.KernelIdeal
open scoped BigOperators

/-- The block product's dimension numbers: rows × contraction against contraction × columns. -/
abbrev D := dot_S10000x256_S256x128_S10000x128_1_0_0_1_n_n

/-- The left operand's row coordinate is the result's row. -/
theorem lhs_0 (i : S10000x128.Idx) (c : D.contr.Idx) : (D.lhsIdx i c 0).val = (i 0).val := by
  unfold DotDims.lhsIdx
  rw [dif_neg (show ¬(0 : Fin S10000x256.rank) ∈ D.lhsBatch by decide),
    dif_pos (show (0 : Fin S10000x256.rank) ∈ D.lhsNonContracting by decide)]
  rfl

/-- The left operand's column coordinate is the contraction coordinate. -/
theorem lhs_1 (i : S10000x128.Idx) (c : D.contr.Idx) : (D.lhsIdx i c 1).val = (c ⟨0, by decide⟩).val :=
  D.lhsIdx_val_of_single rfl i c

/-- The right operand's row coordinate is the contraction coordinate. -/
theorem rhs_0 (i : S10000x128.Idx) (c : D.contr.Idx) : (D.rhsIdx i c 0).val = (c ⟨0, by decide⟩).val :=
  D.rhsIdx_val_of_single rfl i c

/-- The right operand's column coordinate is the result's column. -/
theorem rhs_1 (i : S10000x128.Idx) (c : D.contr.Idx) : (D.rhsIdx i c 1).val = (i 1).val := by
  unfold DotDims.rhsIdx
  rw [dif_neg (show ¬(1 : Fin S256x128.rank) ∈ D.rhsBatch by decide),
    dif_pos (show (1 : Fin S256x128.rank) ∈ D.rhsNonContracting by decide)]
  rfl

/-- The first stored value at (p, q): the block's matrix product. -/
theorem pay1_apply (x0 : Vec Ideal S10000x256 .f32) (w : Vec Ideal S256x128 .f32) (p : Fin 10000) (q : Fin 128) :
    Gen.k0_pay1 (F := Ideal) x0 w (ix2 p q) = ∑ k : Fin 256, x0 (ix2 p k) * w (ix2 k q) := by
  unfold Gen.k0_pay1
  simp only [matmul]
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 p q) ((contrEquiv1 D 256 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 256 rfl rfl).symm k) = ix2 k q := funext fun a => Fin.ext (by
    match a with
    | ⟨0, _⟩ => exact (rhs_0 _ _).trans hk
    | ⟨1, _⟩ => exact rhs_1 _ _)
  rw [el, er]
  rfl

/-- A row `a` broadcast over the block, multiplied pointwise into a matrix `m`, summed along the 128 lanes and kept
    as a column: at (p, ·) the sum over q of m(p, q) · a(0, q). -/
theorem laneSumCol_apply (m : FVec Ideal S10000x128 .f32) (a : FVec Ideal S1x128 .f32)
    (h1 : S1x128.ShapeCasts S1x128) (h2 : S1x128.Broadcasts S10000x128) (h3 : S10000x128.Reduces [1] S10000)
    (hφ : FKind.Formats .f32) (hacc : (0x00000000#32 : BitVec 32) = FKind.add.neutral .f32 hφ)
    (h4 : S10000.ShapeCasts S10000x1) (p : Fin 10000) (u : Fin 1) :
    shapeCast S10000x1
        (multiReduction (F := Ideal) .add [1] S10000
          (mulf m (broadcastTo S10000x128 (shapeCast S1x128 a h1) h2)) 0x00000000#32 h3 hφ hacc) h4 (ix2 p u)
      = ∑ q : Fin 128, m (ix2 p q) * a (ix2 (0 : Fin 1) q) := by
  refine (Cert.Lib.Keepdims.shapeCast_a_a1_apply _ h4 p u).trans ?_
  refine (Cert.Lib.Keepdims.rowSum_apply _ _ h3 hφ hacc p).trans ?_
  refine Finset.sum_congr rfl fun q _ => ?_
  rw [mulf_apply, broadcastTo_1b_ab_apply, shapeCast_self]

/-- The second stored value at (p, ·): the lane sum of the block product's row p weighted by the row `a`. -/
theorem pay2_apply (x0 : Vec Ideal S10000x256 .f32) (w : Vec Ideal S256x128 .f32) (a : Vec Ideal S1x128 .f32)
    (p : Fin 10000) (u : Fin 1) :
    Gen.k0_pay2 (F := Ideal) x0 w a (ix2 p u)
      = ∑ q : Fin 128, (∑ k : Fin 256, x0 (ix2 p k) * w (ix2 k q)) * a (ix2 (0 : Fin 1) q) := by
  unfold Gen.k0_pay2
  refine (laneSumCol_apply (Gen.k0_pay1 x0 w) a _ _ _ _ _ _ p u).trans ?_
  exact Finset.sum_congr rfl fun q _ => by rw [pay1_apply]

/-- The third stored value at (p, ·): the same function of its row `a` as the second (the kernel hands it its second
    attention row). -/
theorem pay3_apply (x0 : Vec Ideal S10000x256 .f32) (w : Vec Ideal S256x128 .f32) (a : Vec Ideal S1x128 .f32)
    (p : Fin 10000) (u : Fin 1) :
    Gen.k0_pay3 (F := Ideal) x0 w a (ix2 p u)
      = ∑ q : Fin 128, (∑ k : Fin 256, x0 (ix2 p k) * w (ix2 k q)) * a (ix2 (0 : Fin 1) q) := by
  unfold Gen.k0_pay3
  refine (laneSumCol_apply (Gen.k0_pay1 x0 w) a _ _ _ _ _ _ p u).trans ?_
  exact Finset.sum_congr rfl fun q _ => by rw [pay1_apply]

/-- The attention row as the host hands it to the kernel: the 1 × 1 × 128 array read as 1 × 128 has, at (0, q), the
    array's entry (0, 0, q). -/
theorem attRow_apply (A : FVec Ideal S1x1x128 .f32) (q : Fin 128) :
    shapeCast S1x128 A Facts₀.shapeCasts_S1x1x128_S1x128 (ix2 (0 : Fin 1) q) = A (ix3 (0 : Fin 1) (0 : Fin 1) q) :=
  shapeCast_1ab_ab_apply A _ (0 : Fin 1) q

end Cert.KernelPayload

end
-- ==== Proof.KernelIdealBlocks.lean ====
/-
  What the three output arrays of the projection kernel hold after its grid, at the extended reals: the ten
  points write disjoint blocks of 10000 rows that together cover each array, and block `t` holds, row by row,
    • the product of rows 10000 t … 10000 t + 9999 of x with the weight matrix (a sum over the 256 input
      channels), and
    • for each of the two attention rows, the sum over the 128 lanes of that product times the row
      (the row read through the host's reshape of the [1, 1, 128] argument),
  so each whole array is one function of the argument arrays.
-/
import proofs.«112865_j88656714924157_1_alg».proof.Proof.KernelIdealFrame
import proofs.«112865_j88656714924157_1_alg».proof.Proof.Spec
import proofs.«112865_j88656714924157_1_alg».proof.Proof.KernelPayload
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.KernelIdeal.Frame Cert.Spec Cert.KernelPayload
open Idealize.ShloMosaic Idealize.ShloMosaic.TcCoe Idealize.ShloMosaic.ValueIdx Idealize.SL.Sem Idealize.ShloMosaic.StableHlo
open Idealize.ShloMosaic.Pipeline (Dat)
open scoped BigOperators

variable (m : (ℓ : Loc nD τ sig) → Buf (Elt Ideal) ℓ)

theorem hz : (![0, 0] : Fin 2 → Nat) = fun _ => 0 := funext fun a => by fin_cases a <;> rfl

/-- The block index maps over the grid: the row-blocked windows sit at block row `t`, the others at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of block `t` is row `10000 t + p` of the array. -/
def rowOf (t : Fin cfg0.N) (p : Fin 10000) : Fin 100000 :=
  ⟨t.val * 10000 + p.val, by have := t.isLt; have hN : cfg0.N = 10 := N_0; have := p.isLt; omega⟩

/-- The attention rows as the grid finds them: the host's reshape of the [1, 1, 128] arguments. -/
theorem V_main_v0 (c : Dev nD) : (V m c main_v0 : S1x128.Idx → EReal)
    = shapeCast S1x128 (m ((c : Thread nD τ).loc main_arg3)) Facts₀.shapeCasts_S1x1x128_S1x128 := by
  show StableHlo.after hostOps0 (fun b => m (c, b)) (Proc.devRef .tc main_v0) = _
  after_results
  rfl
theorem V_main_v1 (c : Dev nD) : (V m c main_v1 : S1x128.Idx → EReal)
    = shapeCast S1x128 (m ((c : Thread nD τ).loc main_arg4)) Facts₀.shapeCasts_S1x1x128_S1x128 := by
  show StableHlo.after hostOps0 (fun b => m (c, b)) (Proc.devRef .tc main_v1) = _
  after_results
  rfl

/-! ## The input blocks -/

theorem iblk0_apply (c : Dev nD) (t : Fin cfg0.N) (p : Fin 10000) (k : Fin 256) :
    (iblk m c 0 t : Vec Ideal S10000x256 .f32) (ix2 p k)
      = (m ((c : Thread nD τ).loc main_arg0) : S100000x256.Idx → EReal) (ix2 (rowOf t p) k) := by
  unfold iblk
  rw [View.read_apply]
  show V m c main_arg0 _ = _
  rw [V_main_arg0]
  refine congrArg _ ?_
  funext a; apply Fin.ext
  obtain ⟨e0, e1, -⟩ := idx_facts t
  match a with
  | ⟨0, _⟩ => show win0_0.index t (0 : Fin 2) * 10000 + 1 * p.val = t.val * 10000 + p.val; rw [e0]; omega
  | ⟨1, _⟩ => show win0_0.index t (1 : Fin 2) * 256 + 1 * k.val = k.val; rw [e1]; omega

theorem iblk1_apply (c : Dev nD) (t : Fin cfg0.N) (k : Fin 256) (q : Fin 128) :
    (iblk m c 1 t : Vec Ideal S256x128 .f32) (ix2 k q)
      = (m ((c : Thread nD τ).loc main_arg2) : S256x128.Idx → EReal) (ix2 k q) := by
  unfold iblk
  rw [View.read_apply]
  show V m c main_arg2 _ = _
  rw [V_main_arg2]
  refine congrArg _ ?_
  funext a; apply Fin.ext
  obtain ⟨-, -, e0, e1, -⟩ := idx_facts t
  match a with
  | ⟨0, _⟩ => show win0_1.index t (0 : Fin 2) * 256 + 1 * k.val = k.val; rw [e0]; omega
  | ⟨1, _⟩ => show win0_1.index t (1 : Fin 2) * 128 + 1 * q.val = q.val; rw [e1]; omega

theorem iblk2_apply (c : Dev nD) (t : Fin cfg0.N) (q : Fin 128) :
    (iblk m c 2 t : Vec Ideal S1x128 .f32) (ix2 (0 : Fin 1) q)
      = (m ((c : Thread nD τ).loc main_arg3) : S1x1x128.Idx → EReal) (ix3 (0 : Fin 1) (0 : Fin 1) q) := by
  unfold iblk
  rw [View.read_apply]
  show V m c main_v0 _ = _
  rw [V_main_v0]
  refine Eq.trans (congrArg _ ?_) (attRow_apply _ q)
  funext a; apply Fin.ext
  obtain ⟨-, -, -, -, e0, e1, -⟩ := idx_facts t
  match a with
  | ⟨0, _⟩ => show win0_2.index t (0 : Fin 2) * 1 + 1 * 0 = 0; rw [e0]
  | ⟨1, _⟩ => show win0_2.index t (1 : Fin 2) * 128 + 1 * q.val = q.val; rw [e1]; omega

theorem iblk3_apply (c : Dev nD) (t : Fin cfg0.N) (q : Fin 128) :
    (iblk m c 3 t : Vec Ideal S1x128 .f32) (ix2 (0 : Fin 1) q)
      = (m ((c : Thread nD τ).loc main_arg4) : S1x1x128.Idx → EReal) (ix3 (0 : Fin 1) (0 : Fin 1) q) := by
  unfold iblk
  rw [View.read_apply]
  show V m c main_v1 _ = _
  rw [V_main_v1]
  refine Eq.trans (congrArg _ ?_) (attRow_apply _ q)
  funext a; apply Fin.ext
  obtain ⟨-, -, -, -, -, -, e0, e1, -⟩ := idx_facts t
  match a with
  | ⟨0, _⟩ => show win0_3.index t (0 : Fin 2) * 1 + 1 * 0 = 0; rw [e0]
  | ⟨1, _⟩ => show win0_3.index t (1 : Fin 2) * 128 + 1 * q.val = q.val; rw [e1]; omega

/-! ## The projected rows -/

theorem embP (t : Fin cfg0.N) (p : Fin 10000) (q : Fin 128) :
    ((cfg0.win 4).blk t).view.emb (ix2 p q) = ix2 (rowOf t p) q := by
  funext a; apply Fin.ext
  obtain ⟨-, -, -, -, -, -, -, -, e0, e1, -⟩ := idx_facts t
  match a with
  | ⟨0, _⟩ => show win0_4.index t (0 : Fin 2) * 10000 + 1 * p.val = t.val * 10000 + p.val; rw [e0]; omega
  | ⟨1, _⟩ => show win0_4.index t (1 : Fin 2) * 128 + 1 * q.val = q.val; rw [e1]; omega

/-- What point `t` writes back of the projected rows is block `t` of the product. -/
theorem flushedP (c : Dev nD) (t : Fin cfg0.N) :
    (dats m 0 c).flushed 4 t = ((cfg0.win 4).blk t).view.read (Elt Ideal)
      (Gxp (m ((c : Thread nD τ).loc main_arg0)) (m ((c : Thread nD τ).loc main_arg2))) := by
  show (cfg0.win 4).cut (grid0.coords t) ((dats m 0 c).after 4 t) = _
  rw [after4]
  unfold outP
  rw [View.canon_unit_zero hz]
  simp only [View.ld_unit_zero (S := S10000x256) hz, View.ld_unit_zero (S := S256x128) hz]
  funext j
  obtain ⟨p, q, rfl⟩ : ∃ (p : Fin 10000) (q : Fin 128), j = ix2 p q := ⟨j 0, j 1, eq_ix2 j⟩
  refine (pay1_apply _ _ p q).trans ?_
  rw [View.read_apply, embP, Gxp_apply]
  exact Finset.sum_congr rfl fun k _ => by rw [iblk0_apply, iblk1_apply]

theorem mem_blkP (t : Fin cfg0.N) (i : S100000x128.Idx) :
    i ∈ ((cfg0.win 4).blk t).view.set ↔ ∀ a : Fin 2, win0_4.index t a * S10000x128.size a ≤ (i a).val
      ∧ (i a).val < win0_4.index t a * S10000x128.size a + S10000x128.size a := by
  show i ∈ ((View.whole main_v2_0).slice (win0_4.rect t)).set ↔ _
  rw [View.set_slice_whole, Rect.mem_set_unit]
  exact Iff.rfl

theorem coverP' (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 10 := N_0
  refine ⟨⟨(i 0).val / 10000, by omega⟩, flush0_4 _, ?_⟩
  rw [mem_blkP]
  obtain ⟨-, -, -, -, -, -, -, -, e0, e1, -⟩ := idx_facts ⟨(i 0).val / 10000, by omega⟩
  intro a
  match a with
  | ⟨0, _⟩ =>
    show win0_4.index _ (0 : Fin 2) * 10000 ≤ (i 0).val ∧ (i 0).val < win0_4.index _ (0 : Fin 2) * 10000 + 10000
    rw [e0]; show (i 0).val / 10000 * 10000 ≤ (i 0).val ∧ (i 0).val < (i 0).val / 10000 * 10000 + 10000; omega
  | ⟨1, _⟩ =>
    show win0_4.index _ (1 : Fin 2) * 128 ≤ (i 1).val ∧ (i 1).val < win0_4.index _ (1 : Fin 2) * 128 + 128
    rw [e1]; omega

/-- The projected-rows array after the grid is the product of x and the weights. -/
theorem finalP (c : Dev nD) : (dats m 0 c).arrAt 4 cfg0.N
    = Gxp (m ((c : Thread nD τ).loc main_arg0)) (m ((c : Thread nD τ).loc main_arg2)) :=
  (dats m 0 c).arrAt_eq_of_cover 4 _ (fun t _ => flushedP m c t) coverP'

/-! ## The two logit columns -/

theorem embS (t : Fin cfg0.N) (p : Fin 10000) (u : Fin 1) :
    ((cfg0.win 5).blk t).view.emb (ix2 p u) = ix2 (rowOf t p) u := by
  funext a; apply Fin.ext
  obtain ⟨-, -, -, -, -, -, -, -, -, -, e0, e1, -⟩ := idx_facts t
  match a with
  | ⟨0, _⟩ => show win0_5.index t (0 : Fin 2) * 10000 + 1 * p.val = t.val * 10000 + p.val; rw [e0]; omega
  | ⟨1, _⟩ => show win0_5.index t (1 : Fin 2) * 1 + 1 * u.val = u.val; rw [e1]; omega

theorem embD (t : Fin cfg0.N) (p : Fin 10000) (u : Fin 1) :
    ((cfg0.win 6).blk t).view.emb (ix2 p u) = ix2 (rowOf t p) u := by
  funext a; apply Fin.ext
  obtain ⟨-, -, -, -, -, -, -, -, -, -, -, -, e0, e1⟩ := idx_facts t
  match a with
  | ⟨0, _⟩ => show win0_6.index t (0 : Fin 2) * 10000 + 1 * p.val = t.val * 10000 + p.val; rw [e0]; omega
  | ⟨1, _⟩ => show win0_6.index t (1 : Fin 2) * 1 + 1 * u.val = u.val; rw [e1]; omega

theorem flushedS (c : Dev nD) (t : Fin cfg0.N) :
    (dats m 0 c).flushed 5 t = ((cfg0.win 5).blk t).view.read (Elt Ideal)
      (Glogit (m ((c : Thread nD τ).loc main_arg0)) (m ((c : Thread nD τ).loc main_arg2)) (m ((c : Thread nD τ).loc main_arg3))) := by
  show (cfg0.win 5).cut (grid0.coords t) ((dats m 0 c).after 5 t) = _
  rw [after5]
  unfold outS
  rw [View.canon_unit_zero hz]
  simp only [View.ld_unit_zero (S := S10000x256) hz, View.ld_unit_zero (S := S256x128) hz, View.ld_unit_zero (S := S1x128) hz]
  funext j
  obtain ⟨p, u, rfl⟩ : ∃ (p : Fin 10000) (u : Fin 1), j = ix2 p u := ⟨j 0, j 1, eq_ix2 j⟩
  refine (pay2_apply _ _ _ p u).trans ?_
  rw [View.read_apply, embS, Glogit_apply']
  refine Finset.sum_congr rfl fun q _ => ?_
  rw [iblk2_apply]
  refine congrArg (· * _) (Finset.sum_congr rfl fun k _ => ?_)
  rw [iblk0_apply, iblk1_apply]

theorem flushedD (c : Dev nD) (t : Fin cfg0.N) :
    (dats m 0 c).flushed 6 t = ((cfg0.win 6).blk t).view.read (Elt Ideal)
      (Glogit (m ((c : Thread nD τ).loc main_arg0)) (m ((c : Thread nD τ).loc main_arg2)) (m ((c : Thread nD τ).loc main_arg4))) := by
  show (cfg0.win 6).cut (grid0.coords t) ((dats m 0 c).after 6 t) = _
  rw [after6]
  unfold outD
  rw [View.canon_unit_zero hz]
  simp only [View.ld_unit_zero (S := S10000x256) hz, View.ld_unit_zero (S := S256x128) hz, View.ld_unit_zero (S := S1x128) hz]
  funext j
  obtain ⟨p, u, rfl⟩ : ∃ (p : Fin 10000) (u : Fin 1), j = ix2 p u := ⟨j 0, j 1, eq_ix2 j⟩
  refine (pay3_apply _ _ _ p u).trans ?_
  rw [View.read_apply, embD, Glogit_apply']
  refine Finset.sum_congr rfl fun q _ => ?_
  rw [iblk3_apply]
  refine congrArg (· * _) (Finset.sum_congr rfl fun k _ => ?_)
  rw [iblk0_apply, iblk1_apply]

theorem mem_blkS (t : Fin cfg0.N) (i : S100000x1.Idx) :
    i ∈ ((cfg0.win 5).blk t).view.set ↔ ∀ a : Fin 2, win0_5.index t a * S10000x1.size a ≤ (i a).val
      ∧ (i a).val < win0_5.index t a * S10000x1.size a + S10000x1.size a := by
  show i ∈ ((View.whole main_v2_1).slice (win0_5.rect t)).set ↔ _
  rw [View.set_slice_whole, Rect.mem_set_unit]
  exact Iff.rfl
theorem mem_blkD (t : Fin cfg0.N) (i : S100000x1.Idx) :
    i ∈ ((cfg0.win 6).blk t).view.set ↔ ∀ a : Fin 2, win0_6.index t a * S10000x1.size a ≤ (i a).val
      ∧ (i a).val < win0_6.index t a * S10000x1.size a + S10000x1.size a := by
  show i ∈ ((View.whole main_v2_2).slice (win0_6.rect t)).set ↔ _
  rw [View.set_slice_whole, Rect.mem_set_unit]
  exact Iff.rfl

theorem coverS' (i : S100000x1.Idx) :
    ∃ t : Fin cfg0.N, (cfg0.win 5).flush t = true ∧ i ∈ ((cfg0.win 5).blk t).view.set := by
  have hi0 : (i 0).val < 100000 := (i 0).isLt
  have hi1 : (i 1).val < 1 := (i 1).isLt
  have hN : cfg0.N = 10 := N_0
  refine ⟨⟨(i 0).val / 10000, by omega⟩, flush0_5 _, ?_⟩
  rw [mem_blkS]
  obtain ⟨-, -, -, -, -, -, -, -, -, -, e0, e1, -⟩ := idx_facts ⟨(i 0).val / 10000, by omega⟩
  intro a
  match a with
  | ⟨0, _⟩ =>
    show win0_5.index _ (0 : Fin 2) * 10000 ≤ (i 0).val ∧ (i 0).val < win0_5.index _ (0 : Fin 2) * 10000 + 10000
    rw [e0]; show (i 0).val / 10000 * 10000 ≤ (i 0).val ∧ (i 0).val < (i 0).val / 10000 * 10000 + 10000; omega
  | ⟨1, _⟩ =>
    show win0_5.index _ (1 : Fin 2) * 1 ≤ (i 1).val ∧ (i 1).val < win0_5.index _ (1 : Fin 2) * 1 + 1
    rw [e1]; omega
theorem coverD' (i : S100000x1.Idx) :
    ∃ t : Fin cfg0.N, (cfg0.win 6).flush t = true ∧ i ∈ ((cfg0.win 6).blk t).view.set := by
  have hi0 : (i 0).val < 100000 := (i 0).isLt
  have hi1 : (i 1).val < 1 := (i 1).isLt
  have hN : cfg0.N = 10 := N_0
  refine ⟨⟨(i 0).val / 10000, by omega⟩, flush0_6 _, ?_⟩
  rw [mem_blkD]
  obtain ⟨-, -, -, -, -, -, -, -, -, -, -, -, e0, e1⟩ := idx_facts ⟨(i 0).val / 10000, by omega⟩
  intro a
  match a with
  | ⟨0, _⟩ =>
    show win0_6.index _ (0 : Fin 2) * 10000 ≤ (i 0).val ∧ (i 0).val < win0_6.index _ (0 : Fin 2) * 10000 + 10000
    rw [e0]; show (i 0).val / 10000 * 10000 ≤ (i 0).val ∧ (i 0).val < (i 0).val / 10000 * 10000 + 10000; omega
  | ⟨1, _⟩ =>
    show win0_6.index _ (1 : Fin 2) * 1 ≤ (i 1).val ∧ (i 1).val < win0_6.index _ (1 : Fin 2) * 1 + 1
    rw [e1]; omega

/-- The source-logit column after the grid. -/
theorem finalS (c : Dev nD) : (dats m 0 c).arrAt 5 cfg0.N
    = Glogit (m ((c : Thread nD τ).loc main_arg0)) (m ((c : Thread nD τ).loc main_arg2)) (m ((c : Thread nD τ).loc main_arg3)) :=
  (dats m 0 c).arrAt_eq_of_cover 5 _ (fun t _ => flushedS m c t) coverS'
/-- The destination-logit column after the grid. -/
theorem finalD (c : Dev nD) : (dats m 0 c).arrAt 6 cfg0.N
    = Glogit (m ((c : Thread nD τ).loc main_arg0)) (m ((c : Thread nD τ).loc main_arg2)) (m ((c : Thread nD τ).loc main_arg4)) :=
  (dats m 0 c).arrAt_eq_of_cover 6 _ (fun t _ => flushedD m c t) coverD'

end Cert.KernelIdeal.Blocks

end
-- ==== Proof.Tail.lean ====
/-
  The host side of the attention layer after the projection, as ONE pure function of what the projection
  produced: from the projected features `xp` ([100000, 128]), the two per-node logits `asrc`, `adst`
  ([100000, 1] columns), the edge list `ei` ([2, 1600000]) and the bias ([128]) it
    • appends one self-loop per node to the source and destination lists and marks which edges are kept
      (an edge with source ≠ destination, and every self-loop);
    • gathers the logits along the edges (an index below zero wraps once), adds them and applies the leaky
      rectifier of slope 0.2;
    • subtracts the maximum over the kept edges, exponentiates, zeroes the dropped edges, sums per destination
      node (a scatter-add), and divides each edge's weight by its destination's sum plus 1e-16;
    • gathers the source node's projected row per edge, scales it by the edge's weight, sums per destination
      node, and adds the bias.
  Each line below is one operation, in the program's order; the value is never opened by the proofs that use
  it: both programs apply it to equal arguments.
-/
import proofs.«112865_j88656714924157_1_alg».proof.Proof.Gen.KernelIdeal

set_option maxHeartbeats 4000000

noncomputable section

namespace Cert.KernelIdeal.Tail

open Idealize.ShloMosaic Cert.KernelIdeal Cert.KernelIdeal.Facts₀

variable {F : FTy → Type} [FloatOps F]

/-- The layer's output from the projection's three results, the edge list and the bias. -/
def tail (xp : (⟨S100000x128, .f32⟩ : BufTy).Contents (Elt F)) (asrc adst : (⟨S100000x1, .f32⟩ : BufTy).Contents (Elt F))
    (ei : (⟨S2x1600000, .i32⟩ : BufTy).Contents (Elt F)) (bias : (⟨S128, .f32⟩ : BufTy).Contents (Elt F)) :
    (⟨S100000x128, .f32⟩ : BufTy).Contents (Elt F) :=
  have t_v3 : (⟨S100000x1x128, .f32⟩ : BufTy).Contents (Elt F) := shapeCast S100000x1x128 xp shapeCasts_S100000x128_S100000x1x128
  have t_v4 : (⟨S1x1600000, .i32⟩ : BufTy).Contents (Elt F) := ((extractStridedSlice S1x1600000 ![0, 0] · slices_S2x1600000_S1x1600000_0_0) : (⟨S2x1600000, .i32⟩ : BufTy).Contents (Elt F) → (⟨S1x1600000, .i32⟩ : BufTy).Contents (Elt F)) ei
  have t_v5 : (⟨S1600000, .i32⟩ : BufTy).Contents (Elt F) := shapeCast S1600000 t_v4 shapeCasts_S1x1600000_S1600000
  have t_v6 : (⟨S1x1600000, .i32⟩ : BufTy).Contents (Elt F) := ((extractStridedSlice S1x1600000 ![1, 0] · slices_S2x1600000_S1x1600000_1_0) : (⟨S2x1600000, .i32⟩ : BufTy).Contents (Elt F) → (⟨S1x1600000, .i32⟩ : BufTy).Contents (Elt F)) ei
  have t_v7 : (⟨S1600000, .i32⟩ : BufTy).Contents (Elt F) := shapeCast S1600000 t_v6 shapeCasts_S1x1600000_S1600000
  have t_v8 : (⟨S100000, .i32⟩ : BufTy).Contents (Elt F) := iotaInDim S100000 32 0
  have t_v9 : (⟨S1700000, .i32⟩ : BufTy).Contents (Elt F) := ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) t_v5 t_v8
  have t_v10 : (⟨S1700000, .i32⟩ : BufTy).Contents (Elt F) := ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) t_v7 t_v8
  have t_v11 : (⟨S1600000, .i1⟩ : BufTy).Contents (Elt F) := (cmpi .ne : (⟨S1600000, .i32⟩ : BufTy).Contents (Elt F) → (⟨S1600000, .i32⟩ : BufTy).Contents (Elt F) → (⟨S1600000, .i1⟩ : BufTy).Contents (Elt F)) t_v5 t_v7
  have t_c : (⟨S_, .i1⟩ : BufTy).Contents (Elt F) := constantI S_ 1 1#1
  have t_v12 : (⟨S100000, .i1⟩ : BufTy).Contents (Elt F) := (broadcastInDim S100000 ![] bcast_S_S100000 : (⟨S_, .i1⟩ : BufTy).Contents (Elt F) → (⟨S100000, .i1⟩ : BufTy).Contents (Elt F)) t_c
  have t_v13 : (⟨S1700000, .i1⟩ : BufTy).Contents (Elt F) := ((fun a b => concatenate S1700000 0 [⟨S1600000, a⟩, ⟨S100000, b⟩] concatenates_S1600000_S100000_S1700000_d0) : (⟨S1600000, .i1⟩ : BufTy).Contents (Elt F) → (⟨S100000, .i1⟩ : BufTy).Contents (Elt F) → (⟨S1700000, .i1⟩ : BufTy).Contents (Elt F)) t_v11 t_v12
  have t_c_0 : (⟨S_, .i32⟩ : BufTy).Contents (Elt F) := constantI S_ 32 0#32
  have t_v14 : (⟨S1700000, .i32⟩ : BufTy).Contents (Elt F) := (broadcastInDim S1700000 ![] bcast_S_S1700000 : (⟨S_, .i32⟩ : BufTy).Contents (Elt F) → (⟨S1700000, .i32⟩ : BufTy).Contents (Elt F)) t_c_0
  have t_v15 : (⟨S1700000, .i1⟩ : BufTy).Contents (Elt F) := (cmpi .slt : (⟨S1700000, .i32⟩ : BufTy).Contents (Elt F) → (⟨S1700000, .i32⟩ : BufTy).Contents (Elt F) → (⟨S1700000, .i1⟩ : BufTy).Contents (Elt F)) t_v9 t_v14
  have t_c_1 : (⟨S_, .i32⟩ : BufTy).Contents (Elt F) := constantI S_ 32 100000#32
  have t_v16 : (⟨S1700000, .i32⟩ : BufTy).Contents (Elt F) := (broadcastInDim S1700000 ![] bcast_S_S1700000 : (⟨S_, .i32⟩ : BufTy).Contents (Elt F) → (⟨S1700000, .i32⟩ : BufTy).Contents (Elt F)) t_c_1
  have t_v17 : (⟨S1700000, .i32⟩ : BufTy).Contents (Elt F) := (addi : (⟨S1700000, .i32⟩ : BufTy).Contents (Elt F) → (⟨S1700000, .i32⟩ : BufTy).Contents (Elt F) → (⟨S1700000, .i32⟩ : BufTy).Contents (Elt F)) t_v9 t_v16
  have t_v18 : (⟨S1700000, .i32⟩ : BufTy).Contents (Elt F) := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) t_v15 t_v17 t_v9
  have t_v19 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) t_v18
  have t_v20 : (⟨S1700000x1, .f32⟩ : BufTy).Contents (Elt F) := ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)) asrc t_v19
  have t_c_2 : (⟨S_, .i32⟩ : BufTy).Contents (Elt F) := constantI S_ 32 0#32
  have t_v21 : (⟨S1700000, .i32⟩ : BufTy).Contents (Elt F) := (broadcastInDim S1700000 ![] bcast_S_S1700000 : (⟨S_, .i32⟩ : BufTy).Contents (Elt F) → (⟨S1700000, .i32⟩ : BufTy).Contents (Elt F)) t_c_2
  have t_v22 : (⟨S1700000, .i1⟩ : BufTy).Contents (Elt F) := (cmpi .slt : (⟨S1700000, .i32⟩ : BufTy).Contents (Elt F) → (⟨S1700000, .i32⟩ : BufTy).Contents (Elt F) → (⟨S1700000, .i1⟩ : BufTy).Contents (Elt F)) t_v10 t_v21
  have t_c_3 : (⟨S_, .i32⟩ : BufTy).Contents (Elt F) := constantI S_ 32 100000#32
  have t_v23 : (⟨S1700000, .i32⟩ : BufTy).Contents (Elt F) := (broadcastInDim S1700000 ![] bcast_S_S1700000 : (⟨S_, .i32⟩ : BufTy).Contents (Elt F) → (⟨S1700000, .i32⟩ : BufTy).Contents (Elt F)) t_c_3
  have t_v24 : (⟨S1700000, .i32⟩ : BufTy).Contents (Elt F) := (addi : (⟨S1700000, .i32⟩ : BufTy).Contents (Elt F) → (⟨S1700000, .i32⟩ : BufTy).Contents (Elt F) → (⟨S1700000, .i32⟩ : BufTy).Contents (Elt F)) t_v10 t_v23
  have t_v25 : (⟨S1700000, .i32⟩ : BufTy).Contents (Elt F) := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) t_v22 t_v24 t_v10
  have t_v26 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) t_v25
  have t_v27 : (⟨S1700000x1, .f32⟩ : BufTy).Contents (Elt F) := ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)) adst t_v26
  have t_v28 : (⟨S1700000x1, .f32⟩ : BufTy).Contents (Elt F) := (addf : (⟨S1700000x1, .f32⟩ : BufTy).Contents (Elt F) → (⟨S1700000x1, .f32⟩ : BufTy).Contents (Elt F) → (⟨S1700000x1, .f32⟩ : BufTy).Contents (Elt F)) t_v20 t_v27
  have t_cst : (⟨S_, .f32⟩ : BufTy).Contents (Elt F) := constant S_ .f32 0x3E4CCCCD#32
  have t_call0_cst : (⟨S_, .f32⟩ : BufTy).Contents (Elt F) := constant S_ .f32 0x00000000#32
  have t_call0_v0 : (⟨S1700000x1, .f32⟩ : BufTy).Contents (Elt F) := ((broadcastInDim S1700000x1 ![] bcast_S_S1700000x1) : (⟨S_, .f32⟩ : BufTy).Contents (Elt F) → (⟨S1700000x1, .f32⟩ : BufTy).Contents (Elt F)) t_call0_cst
  have t_call0_v1 : (⟨S1700000x1, .i1⟩ : BufTy).Contents (Elt F) := ((cmpf .oge) : (⟨S1700000x1, .f32⟩ : BufTy).Contents (Elt F) → (⟨S1700000x1, .f32⟩ : BufTy).Contents (Elt F) → (⟨S1700000x1, .i1⟩ : BufTy).Contents (Elt F)) t_v28 t_call0_v0
  have t_call0_v2 : (⟨S_, .f32⟩ : BufTy).Contents (Elt F) := (id : (⟨S_, .f32⟩ : BufTy).Contents (Elt F) → (⟨S_, .f32⟩ : BufTy).Contents (Elt F)) t_cst
  have t_call0_v3 : (⟨S1700000x1, .f32⟩ : BufTy).Contents (Elt F) := ((broadcastInDim S1700000x1 ![] bcast_S_S1700000x1) : (⟨S_, .f32⟩ : BufTy).Contents (Elt F) → (⟨S1700000x1, .f32⟩ : BufTy).Contents (Elt F)) t_call0_v2
  have t_call0_v4 : (⟨S1700000x1, .f32⟩ : BufTy).Contents (Elt F) := (mulf : (⟨S1700000x1, .f32⟩ : BufTy).Contents (Elt F) → (⟨S1700000x1, .f32⟩ : BufTy).Contents (Elt F) → (⟨S1700000x1, .f32⟩ : BufTy).Contents (Elt F)) t_call0_v3 t_v28
  have t_v29 : (⟨S1700000x1, .f32⟩ : BufTy).Contents (Elt F) := (select : (⟨S1700000x1, .i1⟩ : BufTy).Contents (Elt F) → (⟨S1700000x1, .f32⟩ : BufTy).Contents (Elt F) → (⟨S1700000x1, .f32⟩ : BufTy).Contents (Elt F) → (⟨S1700000x1, .f32⟩ : BufTy).Contents (Elt F)) t_call0_v1 t_v28 t_call0_v4
  have t_v30 : (⟨S1700000x1, .i1⟩ : BufTy).Contents (Elt F) := (broadcastInDim S1700000x1 ![0] bcast_S1700000_S1700000x1_0 : (⟨S1700000, .i1⟩ : BufTy).Contents (Elt F) → (⟨S1700000x1, .i1⟩ : BufTy).Contents (Elt F)) t_v13
  have t_cst_4 : (⟨S_, .f32⟩ : BufTy).Contents (Elt F) := constant S_ .f32 0xFF800000#32
  have t_call1_v0 : (⟨S_, .f32⟩ : BufTy).Contents (Elt F) := (id : (⟨S_, .f32⟩ : BufTy).Contents (Elt F) → (⟨S_, .f32⟩ : BufTy).Contents (Elt F)) t_cst_4
  have t_call1_v1 : (⟨S1700000x1, .f32⟩ : BufTy).Contents (Elt F) := ((broadcastInDim S1700000x1 ![] bcast_S_S1700000x1) : (⟨S_, .f32⟩ : BufTy).Contents (Elt F) → (⟨S1700000x1, .f32⟩ : BufTy).Contents (Elt F)) t_call1_v0
  have t_v31 : (⟨S1700000x1, .f32⟩ : BufTy).Contents (Elt F) := (select : (⟨S1700000x1, .i1⟩ : BufTy).Contents (Elt F) → (⟨S1700000x1, .f32⟩ : BufTy).Contents (Elt F) → (⟨S1700000x1, .f32⟩ : BufTy).Contents (Elt F) → (⟨S1700000x1, .f32⟩ : BufTy).Contents (Elt F)) t_v30 t_v29 t_call1_v1
  have t_cst_5 : (⟨S_, .f32⟩ : BufTy).Contents (Elt F) := constant S_ .f32 0xFF800000#32
  have t_v32 : (⟨S_, .f32⟩ : BufTy).Contents (Elt F) := ((fun x v => Host.reduce FloatOps.maximumf x v reducesTo_S1700000x1_S_d0_1 h_S_) : (⟨S1700000x1, .f32⟩ : BufTy).Contents (Elt F) → (⟨S_, .f32⟩ : BufTy).Contents (Elt F) → (⟨S_, .f32⟩ : BufTy).Contents (Elt F)) t_v31 t_cst_5
  have t_v33 : (⟨S1700000x1, .f32⟩ : BufTy).Contents (Elt F) := (broadcastInDim S1700000x1 ![] bcast_S_S1700000x1 : (⟨S_, .f32⟩ : BufTy).Contents (Elt F) → (⟨S1700000x1, .f32⟩ : BufTy).Contents (Elt F)) t_v32
  have t_v34 : (⟨S1700000x1, .f32⟩ : BufTy).Contents (Elt F) := (subf : (⟨S1700000x1, .f32⟩ : BufTy).Contents (Elt F) → (⟨S1700000x1, .f32⟩ : BufTy).Contents (Elt F) → (⟨S1700000x1, .f32⟩ : BufTy).Contents (Elt F)) t_v29 t_v33
  have t_v35 : (⟨S1700000x1, .f32⟩ : BufTy).Contents (Elt F) := (Host.exp : (⟨S1700000x1, .f32⟩ : BufTy).Contents (Elt F) → (⟨S1700000x1, .f32⟩ : BufTy).Contents (Elt F)) t_v34
  have t_v36 : (⟨S1700000x1, .i1⟩ : BufTy).Contents (Elt F) := (broadcastInDim S1700000x1 ![0] bcast_S1700000_S1700000x1_0 : (⟨S1700000, .i1⟩ : BufTy).Contents (Elt F) → (⟨S1700000x1, .i1⟩ : BufTy).Contents (Elt F)) t_v13
  have t_v37 : (⟨S1700000x1, .f32⟩ : BufTy).Contents (Elt F) := (uitofp .f32 : (⟨S1700000x1, .i1⟩ : BufTy).Contents (Elt F) → (⟨S1700000x1, .f32⟩ : BufTy).Contents (Elt F)) t_v36
  have t_v38 : (⟨S1700000x1, .f32⟩ : BufTy).Contents (Elt F) := (mulf : (⟨S1700000x1, .f32⟩ : BufTy).Contents (Elt F) → (⟨S1700000x1, .f32⟩ : BufTy).Contents (Elt F) → (⟨S1700000x1, .f32⟩ : BufTy).Contents (Elt F)) t_v35 t_v37
  have t_cst_6 : (⟨S_, .f32⟩ : BufTy).Contents (Elt F) := constant S_ .f32 0x00000000#32
  have t_v39 : (⟨S100000x1, .f32⟩ : BufTy).Contents (Elt F) := (broadcastInDim S100000x1 ![] bcast_S_S100000x1 : (⟨S_, .f32⟩ : BufTy).Contents (Elt F) → (⟨S100000x1, .f32⟩ : BufTy).Contents (Elt F)) t_cst_6
  have t_v40 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) t_v10
  have t_v41 : (⟨S100000x1, .f32⟩ : BufTy).Contents (Elt F) := ((fun x i u => Host.scatterAdd scatter_S100000x1_S1700000x1_S1700000x1_1_0_0_1 x i u) : (⟨S100000x1, .f32⟩ : BufTy).Contents (Elt F) → (⟨S1700000x1, .i32⟩ : BufTy).Contents (Elt F) → (⟨S1700000x1, .f32⟩ : BufTy).Contents (Elt F) → (⟨S100000x1, .f32⟩ : BufTy).Contents (Elt F)) t_v39 t_v40 t_v38
  have t_c_7 : (⟨S_, .i32⟩ : BufTy).Contents (Elt F) := constantI S_ 32 0#32
  have t_v42 : (⟨S1700000, .i32⟩ : BufTy).Contents (Elt F) := (broadcastInDim S1700000 ![] bcast_S_S1700000 : (⟨S_, .i32⟩ : BufTy).Contents (Elt F) → (⟨S1700000, .i32⟩ : BufTy).Contents (Elt F)) t_c_7
  have t_v43 : (⟨S1700000, .i1⟩ : BufTy).Contents (Elt F) := (cmpi .slt : (⟨S1700000, .i32⟩ : BufTy).Contents (Elt F) → (⟨S1700000, .i32⟩ : BufTy).Contents (Elt F) → (⟨S1700000, .i1⟩ : BufTy).Contents (Elt F)) t_v10 t_v42
  have t_c_8 : (⟨S_, .i32⟩ : BufTy).Contents (Elt F) := constantI S_ 32 100000#32
  have t_v44 : (⟨S1700000, .i32⟩ : BufTy).Contents (Elt F) := (broadcastInDim S1700000 ![] bcast_S_S1700000 : (⟨S_, .i32⟩ : BufTy).Contents (Elt F) → (⟨S1700000, .i32⟩ : BufTy).Contents (Elt F)) t_c_8
  have t_v45 : (⟨S1700000, .i32⟩ : BufTy).Contents (Elt F) := (addi : (⟨S1700000, .i32⟩ : BufTy).Contents (Elt F) → (⟨S1700000, .i32⟩ : BufTy).Contents (Elt F) → (⟨S1700000, .i32⟩ : BufTy).Contents (Elt F)) t_v10 t_v44
  have t_v46 : (⟨S1700000, .i32⟩ : BufTy).Contents (Elt F) := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) t_v43 t_v45 t_v10
  have t_v47 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) t_v46
  have t_v48 : (⟨S1700000x1, .f32⟩ : BufTy).Contents (Elt F) := ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)) t_v41 t_v47
  have t_cst_9 : (⟨S_, .f32⟩ : BufTy).Contents (Elt F) := constant S_ .f32 0x24E69595#32
  have t_v49 : (⟨S1700000x1, .f32⟩ : BufTy).Contents (Elt F) := (broadcastInDim S1700000x1 ![] bcast_S_S1700000x1 : (⟨S_, .f32⟩ : BufTy).Contents (Elt F) → (⟨S1700000x1, .f32⟩ : BufTy).Contents (Elt F)) t_cst_9
  have t_v50 : (⟨S1700000x1, .f32⟩ : BufTy).Contents (Elt F) := (addf : (⟨S1700000x1, .f32⟩ : BufTy).Contents (Elt F) → (⟨S1700000x1, .f32⟩ : BufTy).Contents (Elt F) → (⟨S1700000x1, .f32⟩ : BufTy).Contents (Elt F)) t_v48 t_v49
  have t_v51 : (⟨S1700000x1, .f32⟩ : BufTy).Contents (Elt F) := (Host.divf : (⟨S1700000x1, .f32⟩ : BufTy).Contents (Elt F) → (⟨S1700000x1, .f32⟩ : BufTy).Contents (Elt F) → (⟨S1700000x1, .f32⟩ : BufTy).Contents (Elt F)) t_v38 t_v50
  have t_c_10 : (⟨S_, .i32⟩ : BufTy).Contents (Elt F) := constantI S_ 32 0#32
  have t_v52 : (⟨S1700000, .i32⟩ : BufTy).Contents (Elt F) := (broadcastInDim S1700000 ![] bcast_S_S1700000 : (⟨S_, .i32⟩ : BufTy).Contents (Elt F) → (⟨S1700000, .i32⟩ : BufTy).Contents (Elt F)) t_c_10
  have t_v53 : (⟨S1700000, .i1⟩ : BufTy).Contents (Elt F) := (cmpi .slt : (⟨S1700000, .i32⟩ : BufTy).Contents (Elt F) → (⟨S1700000, .i32⟩ : BufTy).Contents (Elt F) → (⟨S1700000, .i1⟩ : BufTy).Contents (Elt F)) t_v9 t_v52
  have t_c_11 : (⟨S_, .i32⟩ : BufTy).Contents (Elt F) := constantI S_ 32 100000#32
  have t_v54 : (⟨S1700000, .i32⟩ : BufTy).Contents (Elt F) := (broadcastInDim S1700000 ![] bcast_S_S1700000 : (⟨S_, .i32⟩ : BufTy).Contents (Elt F) → (⟨S1700000, .i32⟩ : BufTy).Contents (Elt F)) t_c_11
  have t_v55 : (⟨S1700000, .i32⟩ : BufTy).Contents (Elt F) := (addi : (⟨S1700000, .i32⟩ : BufTy).Contents (Elt F) → (⟨S1700000, .i32⟩ : BufTy).Contents (Elt F) → (⟨S1700000, .i32⟩ : BufTy).Contents (Elt F)) t_v9 t_v54
  have t_v56 : (⟨S1700000, .i32⟩ : BufTy).Contents (Elt F) := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) t_v53 t_v55 t_v9
  have t_v57 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) t_v56
  have t_v58 : (⟨S1700000x1x128, .f32⟩ : BufTy).Contents (Elt F) := ((fun x i => Host.gather gather_S100000x1x128_S1700000x1_S1700000x1x128_12_0_n_n_0_1_11128 x i) : (⟨S100000x1x128, .f32⟩ : BufTy).Contents (Elt F) → (⟨S1700000x1, .i32⟩ : BufTy).Contents (Elt F) → (⟨S1700000x1x128, .f32⟩ : BufTy).Contents (Elt F)) t_v3 t_v57
  have t_v59 : (⟨S1700000x1x1, .f32⟩ : BufTy).Contents (Elt F) := (broadcastInDim S1700000x1x1 ![0, 1] bcast_S1700000x1_S1700000x1x1_0_1 : (⟨S1700000x1, .f32⟩ : BufTy).Contents (Elt F) → (⟨S1700000x1x1, .f32⟩ : BufTy).Contents (Elt F)) t_v51
  have t_v60 : (⟨S1700000x1x128, .f32⟩ : BufTy).Contents (Elt F) := (broadcastInDim S1700000x1x128 ![0, 1, 2] bcast_S1700000x1x1_S1700000x1x128_0_1_2 : (⟨S1700000x1x1, .f32⟩ : BufTy).Contents (Elt F) → (⟨S1700000x1x128, .f32⟩ : BufTy).Contents (Elt F)) t_v59
  have t_v61 : (⟨S1700000x1x128, .f32⟩ : BufTy).Contents (Elt F) := (mulf : (⟨S1700000x1x128, .f32⟩ : BufTy).Contents (Elt F) → (⟨S1700000x1x128, .f32⟩ : BufTy).Contents (Elt F) → (⟨S1700000x1x128, .f32⟩ : BufTy).Contents (Elt F)) t_v58 t_v60
  have t_cst_12 : (⟨S_, .f32⟩ : BufTy).Contents (Elt F) := constant S_ .f32 0x00000000#32
  have t_v62 : (⟨S100000x1x128, .f32⟩ : BufTy).Contents (Elt F) := (broadcastInDim S100000x1x128 ![] bcast_S_S100000x1x128 : (⟨S_, .f32⟩ : BufTy).Contents (Elt F) → (⟨S100000x1x128, .f32⟩ : BufTy).Contents (Elt F)) t_cst_12
  have t_v63 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) t_v10
  have t_v64 : (⟨S100000x1x128, .f32⟩ : BufTy).Contents (Elt F) := ((fun x i u => Host.scatterAdd scatter_S100000x1x128_S1700000x1_S1700000x1x128_12_0_0_1 x i u) : (⟨S100000x1x128, .f32⟩ : BufTy).Contents (Elt F) → (⟨S1700000x1, .i32⟩ : BufTy).Contents (Elt F) → (⟨S1700000x1x128, .f32⟩ : BufTy).Contents (Elt F) → (⟨S100000x1x128, .f32⟩ : BufTy).Contents (Elt F)) t_v62 t_v63 t_v61
  have t_v65 : (⟨S100000x128, .f32⟩ : BufTy).Contents (Elt F) := shapeCast S100000x128 t_v64 shapeCasts_S100000x1x128_S100000x128
  have t_v66 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) bias
  have t_v67 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) t_v66
  have t_v68 : (⟨S100000x128, .f32⟩ : BufTy).Contents (Elt F) := (addf : (⟨S100000x128, .f32⟩ : BufTy).Contents (Elt F) → (⟨S100000x128, .f32⟩ : BufTy).Contents (Elt F) → (⟨S100000x128, .f32⟩ : BufTy).Contents (Elt F)) t_v65 t_v67
  t_v68

end Cert.KernelIdeal.Tail

end
-- ==== Proof.KernelIdealResult.lean ====
/-
  The idealized kernel program's result as a function of its arguments: after the grid the later host operations
  compute the layer's tail (Proof/Tail.lean) of the three arrays the grid wrote — the projected rows and the two
  logit columns, which are the product x · w and its lane sums against the two attention rows — and of the edge
  list and the bias, which no operation before them changed.
-/
import proofs.«112865_j88656714924157_1_alg».proof.Proof.KernelIdealBlocks
import proofs.«112865_j88656714924157_1_alg».proof.Proof.Tail

set_option maxRecDepth 16384

noncomputable section

namespace Cert.KernelIdeal.Result

open Cert.KernelIdeal Cert.KernelIdeal.Gen Cert.KernelIdeal.Frame Cert.KernelIdeal.Blocks Cert.Spec
open Idealize.ShloMosaic Idealize.ShloMosaic.TcCoe Idealize.SL.Sem Idealize.ShloMosaic.StableHlo
open Idealize.ShloMosaic.Pipeline (Dat)

variable {F : FTy → Type} [FloatOps F]

attribute [local irreducible] Host.gather Host.scatterAdd Host.reduce Host.exp Host.divf concatenate extractStridedSlice iotaInDim in
set_option maxHeartbeats 4000000 in
/-- The later operations' fold, read at the result buffer, is the tail of the three arrays, the edge list and the bias. -/
theorem tail_after (W : Valuation τ sig (Elt F)) :
    after ((tailOps (F := F)).flatten) W (main_v68 : DevRef τ sig)
      = Tail.tail (F := F) (W (main_v2_0 : DevRef τ sig)) (W (main_v2_1 : DevRef τ sig)) (W (main_v2_2 : DevRef τ sig))
          (W (main_arg1 : DevRef τ sig)) (W (main_arg5 : DevRef τ sig)) := by
  simp only [tailOps, hostOps1, hostOps1_1, hostOps1_2, hostOps1_3, hostOps1_4, List.flatten_cons, List.flatten_nil,
    List.append_nil, List.cons_append, List.nil_append]
  after_results_simp
  rfl

variable (m : (ℓ : Loc nD τ sig) → Buf (Elt Ideal) ℓ) (ρ : Dev nD → PrngReg)

/-- The result array of the idealized kernel program, as one function of the argument arrays. -/
def result (c : Dev nD) : Buf (Elt Ideal) ((c.tc : Thread nD τ).loc main_v68) :=
  Tail.tail (F := Ideal)
    (Gxp (m ((c : Thread nD τ).loc main_arg0)) (m ((c : Thread nD τ).loc main_arg2)))
    (Glogit (m ((c : Thread nD τ).loc main_arg0)) (m ((c : Thread nD τ).loc main_arg2)) (m ((c : Thread nD τ).loc main_arg3)))
    (Glogit (m ((c : Thread nD τ).loc main_arg0)) (m ((c : Thread nD τ).loc main_arg2)) (m ((c : Thread nD τ).loc main_arg4)))
    (m ((c : Thread nD τ).loc main_arg1)) (m ((c : Thread nD τ).loc main_arg5))

theorem tail_value (c : Dev nD) :
    Pipeline.afterTail₀ cfgs (dats m) 0 (V0 m) tailOps c main_v68 = result m c := by
  unfold Pipeline.afterTail₀
  rw [tail_after]
  have e4 := Pipeline.withArrays_arr spec0 launch0.win.arr_inj c (V0 m c) (fun w => (dats m 0 c).arrAt w cfg0.N) 4
  have e5 := Pipeline.withArrays_arr spec0 launch0.win.arr_inj c (V0 m c) (fun w => (dats m 0 c).arrAt w cfg0.N) 5
  have e6 := Pipeline.withArrays_arr spec0 launch0.win.arr_inj c (V0 m c) (fun w => (dats m 0 c).arrAt w cfg0.N) 6
  have e1 := Pipeline.withArrays_of_ne spec0 c (V0 m c) (fun w => (dats m 0 c).arrAt w cfg0.N) main_arg1 (by decide)
  have e7 := Pipeline.withArrays_of_ne spec0 c (V0 m c) (fun w => (dats m 0 c).arrAt w cfg0.N) main_arg5 (by decide)
  unfold result
  refine congr (congr (congr (congr (congrArg _ ?_) ?_) ?_) ?_) ?_
  · exact e4.trans (finalP m c)
  · exact e5.trans (finalS m c)
  · exact e6.trans (finalD m c)
  · exact e1.trans (V_main_arg1 m c)
  · exact e7.trans (V_main_arg5 m c)

/-- The run of the idealized kernel program: the result array at `result`, the arguments unchanged. -/
theorem run : θ_run defs (onTc (τ := τ) (main (F := Ideal))) ⟨m, fun _ => 0, ρ⟩ (fun r => ∀ c : Dev nD,
      r.2.mem ((c.tc : Thread nD τ).loc main_v68) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v68 (Pipeline.mem_restRefs_of main_v68 (by decide) (by decide))).trans (tail_value m c),
     ((h c).1 0).trans ((((dats m) 0 c).arrAt_in 0 rfl _).trans ((A_eq m c 0).trans (V_main_arg0 m c))),
     ((h c).2 main_arg1 (Pipeline.mem_restRefs_of main_arg1 (by decide) (by decide))).trans
       ((W_of_not_written m (dats m) c main_arg1 (by decide) (by decide)).trans (V_main_arg1 m c)),
     ((h c).1 1).trans ((((dats m) 0 c).arrAt_in 1 rfl _).trans ((A_eq m c 1).trans (V_main_arg2 m c))),
     ((h c).2 main_arg3 (Pipeline.mem_restRefs_of main_arg3 (by decide) (by decide))).trans
       ((W_of_not_written m (dats m) c main_arg3 (by decide) (by decide)).trans (V_main_arg3 m c)),
     ((h c).2 main_arg4 (Pipeline.mem_restRefs_of main_arg4 (by decide) (by decide))).trans
       ((W_of_not_written m (dats m) c main_arg4 (by decide) (by decide)).trans (V_main_arg4 m c)),
     ((h c).2 main_arg5 (Pipeline.mem_restRefs_of main_arg5 (by decide) (by decide))).trans
       ((W_of_not_written m (dats m) c main_arg5 (by decide) (by decide)).trans (V_main_arg5 m c))⟩) (run_main m ρ)

end Cert.KernelIdeal.Result

end
-- ==== Proof.RefRun.lean ====
/-
  The reference program's run: @main as the list of its 98 host operations (the two called
  functions' bodies listed at their call sites over the calls' buffer records), and what every
  buffer holds once they have run in order from the launch contents; the result buffer's contents are
  the layer's host-side function of the projection and the two logits the reference itself computes.
-/
import proofs.«112865_j88656714924157_1_alg».proof.Proof.Gen.ReferenceIdeal
import Idealize.ShloMosaic.Lib.StableHlo.Run
import proofs.«112865_j88656714924157_1_alg».proof.Proof.Tail

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 98 operations, in order, the calls unfolded: `leaky_relu(%32, 0.2)` is seven (the zero, its
    broadcast, the comparison `x ≥ 0`, the slope converted to its own type and broadcast, the product
    `slope * x`, and `_where`'s select between `x` and the product), `_where_0(%34, %33, -∞)` is three (the
    scalar converted to its own type, broadcast, the select). -/
abbrev ops : List (HloOp τ sig (Elt F)) :=
  [ binary main_arg0 main_arg2 main_v0 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    reshape main_v0 main_v1 rfl shapeCasts_S100000x128_S100000x1x128,
    unary main_arg1 main_v2 ((extractStridedSlice S1x1600000 ![0, 0] · slices_S2x1600000_S1x1600000_0_0) : (⟨S2x1600000, .i32⟩ : BufTy).Contents (Elt F) → (⟨S1x1600000, .i32⟩ : BufTy).Contents (Elt F)),
    reshape main_v2 main_v3 rfl shapeCasts_S1x1600000_S1600000,
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    nullary main_v6 (iotaInDim S100000 32 0),
    binary main_v3 main_v6 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v5 main_v6 main_v8 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v9 (cmpi .ne : (⟨S1600000, .i32⟩ : BufTy).Contents (Elt F) → (⟨S1600000, .i32⟩ : BufTy).Contents (Elt F) → (⟨S1600000, .i1⟩ : BufTy).Contents (Elt F)),
    nullary main_c (constantI S_ 1 1#1),
    unary main_c main_v10 (broadcastInDim S100000 ![] bcast_S_S100000 : (⟨S_, .i1⟩ : BufTy).Contents (Elt F) → (⟨S100000, .i1⟩ : BufTy).Contents (Elt F)),
    binary main_v9 main_v10 main_v11 ((fun a b => concatenate S1700000 0 [⟨S1600000, a⟩, ⟨S100000, b⟩] concatenates_S1600000_S100000_S1700000_d0) : (⟨S1600000, .i1⟩ : BufTy).Contents (Elt F) → (⟨S100000, .i1⟩ : BufTy).Contents (Elt F) → (⟨S1700000, .i1⟩ : BufTy).Contents (Elt F)),
    unary main_arg3 main_v12 (broadcastInDim S100000x1x128 ![0, 1, 2] bcast_S1x1x128_S100000x1x128_0_1_2 : (⟨S1x1x128, .f32⟩ : BufTy).Contents (Elt F) → (⟨S100000x1x128, .f32⟩ : BufTy).Contents (Elt F)),
    binary main_v1 main_v12 main_v13 (mulf : (⟨S100000x1x128, .f32⟩ : BufTy).Contents (Elt F) → (⟨S100000x1x128, .f32⟩ : BufTy).Contents (Elt F) → (⟨S100000x1x128, .f32⟩ : BufTy).Contents (Elt F)),
    nullary main_cst (constant S_ .f32 0x00000000#32),
    binary main_v13 main_cst main_v14 ((fun x v => Host.reduceAdd x v reducesTo_S100000x1x128_S100000x1_d2 h_S_) : (⟨S100000x1x128, .f32⟩ : BufTy).Contents (Elt F) → (⟨S_, .f32⟩ : BufTy).Contents (Elt F) → (⟨S100000x1, .f32⟩ : BufTy).Contents (Elt F)),
    unary main_arg4 main_v15 (broadcastInDim S100000x1x128 ![0, 1, 2] bcast_S1x1x128_S100000x1x128_0_1_2 : (⟨S1x1x128, .f32⟩ : BufTy).Contents (Elt F) → (⟨S100000x1x128, .f32⟩ : BufTy).Contents (Elt F)),
    binary main_v1 main_v15 main_v16 (mulf : (⟨S100000x1x128, .f32⟩ : BufTy).Contents (Elt F) → (⟨S100000x1x128, .f32⟩ : BufTy).Contents (Elt F) → (⟨S100000x1x128, .f32⟩ : BufTy).Contents (Elt F)),
    nullary main_cst_0 (constant S_ .f32 0x00000000#32),
    binary main_v16 main_cst_0 main_v17 ((fun x v => Host.reduceAdd x v reducesTo_S100000x1x128_S100000x1_d2 h_S_) : (⟨S100000x1x128, .f32⟩ : BufTy).Contents (Elt F) → (⟨S_, .f32⟩ : BufTy).Contents (Elt F) → (⟨S100000x1, .f32⟩ : BufTy).Contents (Elt F)),
    nullary main_c_1 (constantI S_ 32 0#32),
    unary main_c_1 main_v18 (broadcastInDim S1700000 ![] bcast_S_S1700000 : (⟨S_, .i32⟩ : BufTy).Contents (Elt F) → (⟨S1700000, .i32⟩ : BufTy).Contents (Elt F)),
    binary main_v7 main_v18 main_v19 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v20 (broadcastInDim S1700000 ![] bcast_S_S1700000 : (⟨S_, .i32⟩ : BufTy).Contents (Elt F) → (⟨S1700000, .i32⟩ : BufTy).Contents (Elt F)),
    binary main_v7 main_v20 main_v21 (addi : (⟨S1700000, .i32⟩ : BufTy).Contents (Elt F) → (⟨S1700000, .i32⟩ : BufTy).Contents (Elt F) → (⟨S1700000, .i32⟩ : BufTy).Contents (Elt F)),
    ternary main_v19 main_v21 main_v7 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v22 main_v23 (broadcastInDim S1700000x1 ![0] bcast_S1700000_S1700000x1_0 : (⟨S1700000, .i32⟩ : BufTy).Contents (Elt F) → (⟨S1700000x1, .i32⟩ : BufTy).Contents (Elt F)),
    binary main_v14 main_v23 main_v24 ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)),
    nullary main_c_3 (constantI S_ 32 0#32),
    unary main_c_3 main_v25 (broadcastInDim S1700000 ![] bcast_S_S1700000 : (⟨S_, .i32⟩ : BufTy).Contents (Elt F) → (⟨S1700000, .i32⟩ : BufTy).Contents (Elt F)),
    binary main_v8 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v27 (broadcastInDim S1700000 ![] bcast_S_S1700000 : (⟨S_, .i32⟩ : BufTy).Contents (Elt F) → (⟨S1700000, .i32⟩ : BufTy).Contents (Elt F)),
    binary main_v8 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v8 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v17 main_v30 main_v31 ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)),
    binary main_v24 main_v31 main_v32 (addf : (⟨S1700000x1, .f32⟩ : BufTy).Contents (Elt F) → (⟨S1700000x1, .f32⟩ : BufTy).Contents (Elt F) → (⟨S1700000x1, .f32⟩ : BufTy).Contents (Elt F)),
    nullary main_cst_5 (constant S_ .f32 0x3E4CCCCD#32),
    TRef.nullary main_call0.cst (constant S_ .f32 0x00000000#32),
    TRef.unary main_call0.cst main_call0.v0 (broadcastInDim S1700000x1 ![] bcast_S_S1700000x1),
    TRef.binary (.of main_v32 : TRef sig ⟨S1700000x1, .f32⟩) main_call0.v0 main_call0.v1 (cmpf .oge),
    TRef.unary (.of main_cst_5 : TRef sig ⟨S_, .f32⟩) main_call0.v2 id,
    TRef.unary main_call0.v2 main_call0.v3 (broadcastInDim S1700000x1 ![] bcast_S_S1700000x1),
    TRef.binary main_call0.v3 (.of main_v32 : TRef sig ⟨S1700000x1, .f32⟩) main_call0.v4 mulf,
    TRef.ternary main_call0.v1 (.of main_v32 : TRef sig ⟨S1700000x1, .f32⟩) main_call0.v4 main_call0.call0.v0 select,
    unary main_v11 main_v34 (broadcastInDim S1700000x1 ![0] bcast_S1700000_S1700000x1_0 : (⟨S1700000, .i1⟩ : BufTy).Contents (Elt F) → (⟨S1700000x1, .i1⟩ : BufTy).Contents (Elt F)),
    nullary main_cst_6 (constant S_ .f32 0xFF800000#32),
    TRef.unary (.of main_cst_6 : TRef sig ⟨S_, .f32⟩) main_call1.v0 id,
    TRef.unary main_call1.v0 main_call1.v1 (broadcastInDim S1700000x1 ![] bcast_S_S1700000x1),
    TRef.ternary (.of main_v34 : TRef sig ⟨S1700000x1, .i1⟩) (.of main_v33 : TRef sig ⟨S1700000x1, .f32⟩) main_call1.v1 main_call1.v2 select,
    nullary main_cst_7 (constant S_ .f32 0xFF800000#32),
    binary main_v35 main_cst_7 main_v36 ((fun x v => Host.reduce FloatOps.maximumf x v reducesTo_S1700000x1_S_d0_1 h_S_) : (⟨S1700000x1, .f32⟩ : BufTy).Contents (Elt F) → (⟨S_, .f32⟩ : BufTy).Contents (Elt F) → (⟨S_, .f32⟩ : BufTy).Contents (Elt F)),
    unary main_v36 main_v37 (broadcastInDim S1700000x1 ![] bcast_S_S1700000x1 : (⟨S_, .f32⟩ : BufTy).Contents (Elt F) → (⟨S1700000x1, .f32⟩ : BufTy).Contents (Elt F)),
    binary main_v33 main_v37 main_v38 (subf : (⟨S1700000x1, .f32⟩ : BufTy).Contents (Elt F) → (⟨S1700000x1, .f32⟩ : BufTy).Contents (Elt F) → (⟨S1700000x1, .f32⟩ : BufTy).Contents (Elt F)),
    unary main_v38 main_v39 (Host.exp : (⟨S1700000x1, .f32⟩ : BufTy).Contents (Elt F) → (⟨S1700000x1, .f32⟩ : BufTy).Contents (Elt F)),
    unary main_v11 main_v40 (broadcastInDim S1700000x1 ![0] bcast_S1700000_S1700000x1_0 : (⟨S1700000, .i1⟩ : BufTy).Contents (Elt F) → (⟨S1700000x1, .i1⟩ : BufTy).Contents (Elt F)),
    unary main_v40 main_v41 (uitofp .f32 : (⟨S1700000x1, .i1⟩ : BufTy).Contents (Elt F) → (⟨S1700000x1, .f32⟩ : BufTy).Contents (Elt F)),
    binary main_v39 main_v41 main_v42 (mulf : (⟨S1700000x1, .f32⟩ : BufTy).Contents (Elt F) → (⟨S1700000x1, .f32⟩ : BufTy).Contents (Elt F) → (⟨S1700000x1, .f32⟩ : BufTy).Contents (Elt F)),
    nullary main_cst_8 (constant S_ .f32 0x00000000#32),
    unary main_cst_8 main_v43 (broadcastInDim S100000x1 ![] bcast_S_S100000x1 : (⟨S_, .f32⟩ : BufTy).Contents (Elt F) → (⟨S100000x1, .f32⟩ : BufTy).Contents (Elt F)),
    unary main_v8 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x1_S1700000x1_S1700000x1_1_0_0_1 x i u) : (⟨S100000x1, .f32⟩ : BufTy).Contents (Elt F) → (⟨S1700000x1, .i32⟩ : BufTy).Contents (Elt F) → (⟨S1700000x1, .f32⟩ : BufTy).Contents (Elt F) → (⟨S100000x1, .f32⟩ : BufTy).Contents (Elt F)),
    nullary main_c_9 (constantI S_ 32 0#32),
    unary main_c_9 main_v46 (broadcastInDim S1700000 ![] bcast_S_S1700000 : (⟨S_, .i32⟩ : BufTy).Contents (Elt F) → (⟨S1700000, .i32⟩ : BufTy).Contents (Elt F)),
    binary main_v8 main_v46 main_v47 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v48 (broadcastInDim S1700000 ![] bcast_S_S1700000 : (⟨S_, .i32⟩ : BufTy).Contents (Elt F) → (⟨S1700000, .i32⟩ : BufTy).Contents (Elt F)),
    binary main_v8 main_v48 main_v49 (addi : (⟨S1700000, .i32⟩ : BufTy).Contents (Elt F) → (⟨S1700000, .i32⟩ : BufTy).Contents (Elt F) → (⟨S1700000, .i32⟩ : BufTy).Contents (Elt F)),
    ternary main_v47 main_v49 main_v8 main_v50 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v50 main_v51 (broadcastInDim S1700000x1 ![0] bcast_S1700000_S1700000x1_0 : (⟨S1700000, .i32⟩ : BufTy).Contents (Elt F) → (⟨S1700000x1, .i32⟩ : BufTy).Contents (Elt F)),
    binary main_v45 main_v51 main_v52 ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)),
    nullary main_cst_11 (constant S_ .f32 0x24E69595#32),
    unary main_cst_11 main_v53 (broadcastInDim S1700000x1 ![] bcast_S_S1700000x1 : (⟨S_, .f32⟩ : BufTy).Contents (Elt F) → (⟨S1700000x1, .f32⟩ : BufTy).Contents (Elt F)),
    binary main_v52 main_v53 main_v54 (addf : (⟨S1700000x1, .f32⟩ : BufTy).Contents (Elt F) → (⟨S1700000x1, .f32⟩ : BufTy).Contents (Elt F) → (⟨S1700000x1, .f32⟩ : BufTy).Contents (Elt F)),
    binary main_v42 main_v54 main_v55 (Host.divf : (⟨S1700000x1, .f32⟩ : BufTy).Contents (Elt F) → (⟨S1700000x1, .f32⟩ : BufTy).Contents (Elt F) → (⟨S1700000x1, .f32⟩ : BufTy).Contents (Elt F)),
    nullary main_c_12 (constantI S_ 32 0#32),
    unary main_c_12 main_v56 (broadcastInDim S1700000 ![] bcast_S_S1700000 : (⟨S_, .i32⟩ : BufTy).Contents (Elt F) → (⟨S1700000, .i32⟩ : BufTy).Contents (Elt F)),
    binary main_v7 main_v56 main_v57 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v58 (broadcastInDim S1700000 ![] bcast_S_S1700000 : (⟨S_, .i32⟩ : BufTy).Contents (Elt F) → (⟨S1700000, .i32⟩ : BufTy).Contents (Elt F)),
    binary main_v7 main_v58 main_v59 (addi : (⟨S1700000, .i32⟩ : BufTy).Contents (Elt F) → (⟨S1700000, .i32⟩ : BufTy).Contents (Elt F) → (⟨S1700000, .i32⟩ : BufTy).Contents (Elt F)),
    ternary main_v57 main_v59 main_v7 main_v60 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v60 main_v61 (broadcastInDim S1700000x1 ![0] bcast_S1700000_S1700000x1_0 : (⟨S1700000, .i32⟩ : BufTy).Contents (Elt F) → (⟨S1700000x1, .i32⟩ : BufTy).Contents (Elt F)),
    binary main_v1 main_v61 main_v62 ((fun x i => Host.gather gather_S100000x1x128_S1700000x1_S1700000x1x128_12_0_n_n_0_1_11128 x i) : (⟨S100000x1x128, .f32⟩ : BufTy).Contents (Elt F) → (⟨S1700000x1, .i32⟩ : BufTy).Contents (Elt F) → (⟨S1700000x1x128, .f32⟩ : BufTy).Contents (Elt F)),
    unary main_v55 main_v63 (broadcastInDim S1700000x1x1 ![0, 1] bcast_S1700000x1_S1700000x1x1_0_1 : (⟨S1700000x1, .f32⟩ : BufTy).Contents (Elt F) → (⟨S1700000x1x1, .f32⟩ : BufTy).Contents (Elt F)),
    unary main_v63 main_v64 (broadcastInDim S1700000x1x128 ![0, 1, 2] bcast_S1700000x1x1_S1700000x1x128_0_1_2 : (⟨S1700000x1x1, .f32⟩ : BufTy).Contents (Elt F) → (⟨S1700000x1x128, .f32⟩ : BufTy).Contents (Elt F)),
    binary main_v62 main_v64 main_v65 (mulf : (⟨S1700000x1x128, .f32⟩ : BufTy).Contents (Elt F) → (⟨S1700000x1x128, .f32⟩ : BufTy).Contents (Elt F) → (⟨S1700000x1x128, .f32⟩ : BufTy).Contents (Elt F)),
    nullary main_cst_14 (constant S_ .f32 0x00000000#32),
    unary main_cst_14 main_v66 (broadcastInDim S100000x1x128 ![] bcast_S_S100000x1x128 : (⟨S_, .f32⟩ : BufTy).Contents (Elt F) → (⟨S100000x1x128, .f32⟩ : BufTy).Contents (Elt F)),
    unary main_v8 main_v67 (broadcastInDim S1700000x1 ![0] bcast_S1700000_S1700000x1_0 : (⟨S1700000, .i32⟩ : BufTy).Contents (Elt F) → (⟨S1700000x1, .i32⟩ : BufTy).Contents (Elt F)),
    ternary main_v66 main_v67 main_v65 main_v68 ((fun x i u => Host.scatterAdd scatter_S100000x1x128_S1700000x1_S1700000x1x128_12_0_0_1 x i u) : (⟨S100000x1x128, .f32⟩ : BufTy).Contents (Elt F) → (⟨S1700000x1, .i32⟩ : BufTy).Contents (Elt F) → (⟨S1700000x1x128, .f32⟩ : BufTy).Contents (Elt F) → (⟨S100000x1x128, .f32⟩ : BufTy).Contents (Elt F)),
    reshape main_v68 main_v69 rfl shapeCasts_S100000x1x128_S100000x128,
    unary main_arg5 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v69 main_v71 main_v72 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 1600000 in
/-- @main is that straight line: its two windows in order, the called functions unfolded at their calls,
    the chain of steps reassociated. -/
theorem main_eq (c : Dev nD) : main (F := F) c = seq ops := by
  simp only [main, main_part0, main_part1, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., reshape_bufs_sub .., unary_bufs_sub .., reshape_bufs_sub .., unary_bufs_sub .., reshape_bufs_sub ..,
    nullary_bufs_sub .., binary_bufs_sub .., binary_bufs_sub .., binary_bufs_sub .., nullary_bufs_sub .., unary_bufs_sub ..,
    binary_bufs_sub .., unary_bufs_sub .., binary_bufs_sub .., nullary_bufs_sub .., binary_bufs_sub .., unary_bufs_sub ..,
    binary_bufs_sub .., nullary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., nullary_bufs_sub ..,
    unary_bufs_sub .., binary_bufs_sub .., unary_bufs_sub .., unary_bufs_sub .., binary_bufs_sub .., ternary_bufs_sub ..,
    unary_bufs_sub .., nullary_bufs_sub .., unary_bufs_sub .., unary_bufs_sub .., ternary_bufs_sub .., nullary_bufs_sub ..,
    binary_bufs_sub .., unary_bufs_sub .., binary_bufs_sub .., unary_bufs_sub .., unary_bufs_sub .., unary_bufs_sub ..,
    binary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., reshape_bufs_sub .., unary_bufs_sub ..,
    unary_bufs_sub .., binary_bufs_sub ..⟩

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
/-- No operation writes argument 0: the fold leaves it as it was. -/
theorem arg0_eq (V : Valuation τ sig (Elt F)) :
    after ops V (main_arg0 : DevRef τ sig) = V (main_arg0 : DevRef τ sig) := by
  simp only [after_cons, after_nil]
  rfl

set_option maxRecDepth 8192 in
/-- No operation writes argument 1: the fold leaves it as it was. -/
theorem arg1_eq (V : Valuation τ sig (Elt F)) :
    after ops V (main_arg1 : DevRef τ sig) = V (main_arg1 : DevRef τ sig) := by
  simp only [after_cons, after_nil]
  rfl

set_option maxRecDepth 8192 in
/-- No operation writes argument 2: the fold leaves it as it was. -/
theorem arg2_eq (V : Valuation τ sig (Elt F)) :
    after ops V (main_arg2 : DevRef τ sig) = V (main_arg2 : DevRef τ sig) := by
  simp only [after_cons, after_nil]
  rfl

set_option maxRecDepth 8192 in
/-- No operation writes argument 3: the fold leaves it as it was. -/
theorem arg3_eq (V : Valuation τ sig (Elt F)) :
    after ops V (main_arg3 : DevRef τ sig) = V (main_arg3 : DevRef τ sig) := by
  simp only [after_cons, after_nil]
  rfl

set_option maxRecDepth 8192 in
/-- No operation writes argument 4: the fold leaves it as it was. -/
theorem arg4_eq (V : Valuation τ sig (Elt F)) :
    after ops V (main_arg4 : DevRef τ sig) = V (main_arg4 : DevRef τ sig) := by
  simp only [after_cons, after_nil]
  rfl

set_option maxRecDepth 8192 in
/-- No operation writes argument 5: the fold leaves it as it was. -/
theorem arg5_eq (V : Valuation τ sig (Elt F)) :
    after ops V (main_arg5 : DevRef τ sig) = V (main_arg5 : DevRef τ sig) := by
  simp only [after_cons, after_nil]
  rfl

/-- The run leaves the six argument arrays as the launch found them. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_arg0).trans (arg0_eq _), (h c main_arg1).trans (arg1_eq _),
      (h c main_arg2).trans (arg2_eq _), (h c main_arg3).trans (arg3_eq _), (h c main_arg4).trans (arg4_eq _),
      (h c main_arg5).trans (arg5_eq _)⟩)
    (run_main m ρ)

/-- The reference's projection `x · w` ([100000, 256] by [256, 128]), as the program's first operation computes it. -/
def xpR (x : (⟨S100000x256, .f32⟩ : BufTy).Contents (Elt F)) (w : (⟨S256x128, .f32⟩ : BufTy).Contents (Elt F)) :
    (⟨S100000x128, .f32⟩ : BufTy).Contents (Elt F) :=
  Host.dotGeneral dot_S100000x256_S256x128_S100000x128_1_0_0_1_n_n none x w

/-- The reference's per-node logit for an attention vector `a` ([1, 1, 128]): the projection reshaped to
    [100000, 1, 128], multiplied by `a` broadcast along the nodes, summed over the last axis from zero. -/
def logitR (x : (⟨S100000x256, .f32⟩ : BufTy).Contents (Elt F)) (w : (⟨S256x128, .f32⟩ : BufTy).Contents (Elt F))
    (a : (⟨S1x1x128, .f32⟩ : BufTy).Contents (Elt F)) : (⟨S100000x1, .f32⟩ : BufTy).Contents (Elt F) :=
  Host.reduceAdd
    (mulf (shapeCast S100000x1x128 (xpR x w) shapeCasts_S100000x128_S100000x1x128)
      (broadcastInDim S100000x1x128 ![0, 1, 2] bcast_S1x1x128_S100000x1x128_0_1_2 a))
    (constant S_ .f32 0x00000000#32) reducesTo_S100000x1x128_S100000x1_d2 h_S_

attribute [local irreducible] Host.gather Host.scatterAdd Host.reduce Host.reduceAdd Host.exp Host.divf
  concatenate broadcastInDim shapeCast extractStridedSlice iotaInDim cmpi cmpf addi addf mulf subf select uitofp constant constantI in
set_option maxRecDepth 16384 in
set_option maxHeartbeats 1600000 in
/-- What the result buffer holds after the line: each operation's result rewritten to its function's value at
    its own buffer and to what was there at any other, the composed term is the layer's host-side function applied
    to the projection `xpR`, the two logits `logitR` (at the source and the destination attention vectors), the
    edge list and the bias — operation for operation the same term, the shape relations and dimension records of the
    two programs being equal literals, so by computation. The element-wise and indexed operations are kept folded
    meanwhile: the equation compares their arguments and never looks inside them. -/
theorem out_eq (V : Valuation τ sig (Elt F)) :
    after ops V (main_v72 : DevRef τ sig)
      = Cert.KernelIdeal.Tail.tail (F := F) (xpR (V (main_arg0 : DevRef τ sig)) (V (main_arg2 : DevRef τ sig)))
          (logitR (V (main_arg0 : DevRef τ sig)) (V (main_arg2 : DevRef τ sig)) (V (main_arg3 : DevRef τ sig)))
          (logitR (V (main_arg0 : DevRef τ sig)) (V (main_arg2 : DevRef τ sig)) (V (main_arg4 : DevRef τ sig)))
          (V (main_arg1 : DevRef τ sig)) (V (main_arg5 : DevRef τ sig)) := by
  after_results_simp
  rfl

end Cert.ReferenceIdeal.RefRun

end
-- ==== Proof.RefStages.lean ====
/-
  The reference's first stages read against the specification, at the extended reals, on the whole arrays.

  With `X` the features (100000 × 256), `W` the weights (256 × 128) and `A` an attention row (1 × 1 × 128):
    • the reference's matrix product of `X` and `W` is the specification's `Gxp X W`;
    • the product recast as 100000 × 1 × 128, multiplied pointwise by `A` broadcast along the rows, and summed along its
      last axis from the initial value zero, is the specification's column of logits `Glogit X W A`.
-/
import proofs.«112865_j88656714924157_1_alg».proof.Proof.Spec
import proofs.«112865_j88656714924157_1_alg».proof.ReferenceIdeal
import proofs.«112865_j88656714924157_1_alg».proof.Proof.Gen.ReferenceIdeal
import Idealize.ShloMosaic.Lib.ValueLayout
import Idealize.ShloMosaic.Lib.Pipeline.Value
import Idealize.ShloMosaic.PureOps.Ideal.Laws

noncomputable section

namespace Cert.RefStages

open Idealize.ShloMosaic Idealize.ShloMosaic.ValueIdx Cert.ReferenceIdeal
open scoped BigOperators

/-- The reference product's dimension numbers: rows × contraction against contraction × columns. -/
abbrev DR := dot_S100000x256_S256x128_S100000x128_1_0_0_1_n_n

/-- The left operand's row coordinate is the result's row. -/
theorem lhs_0 (i : S100000x128.Idx) (c : DR.contr.Idx) : (DR.lhsIdx i c 0).val = (i 0).val := by
  unfold DotDims.lhsIdx
  rw [dif_neg (show ¬(0 : Fin S100000x256.rank) ∈ DR.lhsBatch by decide),
    dif_pos (show (0 : Fin S100000x256.rank) ∈ DR.lhsNonContracting by decide)]
  rfl

/-- The left operand's column coordinate is the contraction coordinate. -/
theorem lhs_1 (i : S100000x128.Idx) (c : DR.contr.Idx) : (DR.lhsIdx i c 1).val = (c ⟨0, by decide⟩).val :=
  DR.lhsIdx_val_of_single rfl i c

/-- The right operand's row coordinate is the contraction coordinate. -/
theorem rhs_0 (i : S100000x128.Idx) (c : DR.contr.Idx) : (DR.rhsIdx i c 0).val = (c ⟨0, by decide⟩).val :=
  DR.rhsIdx_val_of_single rfl i c

/-- The right operand's column coordinate is the result's column. -/
theorem rhs_1 (i : S100000x128.Idx) (c : DR.contr.Idx) : (DR.rhsIdx i c 1).val = (i 1).val := by
  unfold DotDims.rhsIdx
  rw [dif_neg (show ¬(1 : Fin S256x128.rank) ∈ DR.rhsBatch by decide),
    dif_pos (show (1 : Fin S256x128.rank) ∈ DR.rhsNonContracting by decide)]
  rfl

/-- The reference's matrix product is the specification's. -/
theorem xpR_eq (X : (⟨S100000x256, .f32⟩ : BufTy).Contents (Elt Ideal)) (W : (⟨S256x128, .f32⟩ : BufTy).Contents (Elt Ideal)) :
    Host.dotGeneral (F := Ideal) (φ₁ := .f32) (φ₂ := .f32) dot_S100000x256_S256x128_S100000x128_1_0_0_1_n_n none X W
      = Cert.Spec.Gxp X W := by
  funext j
  obtain ⟨P, q, rfl⟩ : ∃ (P : Fin 100000) (q : Fin 128), j = ix2 P q := ⟨j 0, j 1, eq_ix2 j⟩
  rw [Cert.Spec.Gxp_apply]
  simp only [Host.dotGeneral]
  rw [Ideal.dotGeneral_apply, ← Equiv.sum_comp (contrEquiv1 DR 256 rfl rfl).symm]
  refine Finset.sum_congr rfl fun k _ => ?_
  have hk := contrEquiv1_symm_val DR 256 rfl rfl k
  have el : DR.lhsIdx (ix2 P q) ((contrEquiv1 DR 256 rfl rfl).symm k) = ix2 P k := funext fun a => Fin.ext (by
    match a with
    | ⟨0, _⟩ => exact lhs_0 _ _
    | ⟨1, _⟩ => exact (lhs_1 _ _).trans hk)
  have er : DR.rhsIdx (ix2 P q) ((contrEquiv1 DR 256 rfl rfl).symm k) = ix2 k q := funext fun a => Fin.ext (by
    match a with
    | ⟨0, _⟩ => exact (rhs_0 _ _).trans hk
    | ⟨1, _⟩ => exact rhs_1 _ _)
  rw [el, er]

/-- An `[a, b]` array recast as `[a, 1, b]` reads, at `(i, u, j)`, the array's entry `(i, j)`, whatever the unit
    coordinate `u`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, 1, b]` row broadcast along the rows of `[a, 1, b]` (each axis to itself) reads, at `(i, u, j)`, the row's
    entry `(0, 0, j)`. -/
theorem broadcastInDim_11b_a1b_apply {α : Type} {a b : ℕ} (x : (⟨3, ![1, 1, b]⟩ : Shape).Idx → α)
    (h : (⟨3, ![1, 1, b]⟩ : Shape).BroadcastsInDim ⟨3, ![a, 1, b]⟩ ![0, 1, 2]) (i : Fin a) (u : Fin 1) (j : Fin b) :
    broadcastInDim ⟨3, ![a, 1, b]⟩ ![0, 1, 2] h x (ix3 i u j) = x (ix3 (0 : Fin 1) (0 : Fin 1) j) := by
  refine broadcastInDim_apply _ h x (ix3 i u j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

/-- The host's sum of an `[a, 1, b]` array along its last axis, at the extended reals, is at `(i, u)` the initial value
    plus the sum over `k` of the entries `(i, u, k)`. -/
theorem hostLaneSum_apply {a b : ℕ} (src : (⟨3, ![a, 1, b]⟩ : Shape).Idx → EReal) (init : EReal)
    (h' : (⟨3, ![a, 1, b]⟩ : Shape).ReducesTo [(2 : Fin 3)] ⟨2, ![a, 1]⟩)
    (h : (⟨3, ![a, 1, b]⟩ : Shape).Reduces [(2 : Fin 3)] ⟨2, ![a, 1]⟩) (i : Fin a) (u : Fin 1) :
    Ideal.hostReduceAdd h' src init (ix2 i u) = init + ∑ k : Fin b, src (ix3 i u k) :=
  (Ideal.hostReduceAdd_single h' h src init (ix2 i u)).trans
    (congrArg (init + ·) (Finset.sum_congr rfl fun k _ => congrArg src (funext fun c => Fin.ext (by
      match c with
      | ⟨0, _⟩ => rfl
      | ⟨1, _⟩ => rfl
      | ⟨2, _⟩ => rfl))))

/-- The reference's column of logits is the specification's. -/
theorem logitR_eq (X : (⟨S100000x256, .f32⟩ : BufTy).Contents (Elt Ideal)) (W : (⟨S256x128, .f32⟩ : BufTy).Contents (Elt Ideal))
    (A : (⟨S1x1x128, .f32⟩ : BufTy).Contents (Elt Ideal)) :
    Host.reduceAdd (F := Ideal)
        (mulf (shapeCast S100000x1x128 (Cert.Spec.Gxp X W) Facts₀.shapeCasts_S100000x128_S100000x1x128)
          (broadcastInDim S100000x1x128 ![0, 1, 2] Facts₀.bcast_S1x1x128_S100000x1x128_0_1_2 A))
        (constant (F := Ideal) S_ .f32 0x00000000#32) Facts₀.reducesTo_S100000x1x128_S100000x1_d2 Facts₀.h_S_
      = Cert.Spec.Glogit X W A := by
  funext j
  obtain ⟨P, u, rfl⟩ : ∃ (P : Fin 100000) (u : Fin 1), j = ix2 P u := ⟨j 0, j 1, eq_ix2 j⟩
  rw [Cert.Spec.Glogit_apply]
  unfold Host.reduceAdd
  simp only [Ideal.hostReduceAdd_def]
  refine (hostLaneSum_apply _ _ Facts₀.reducesTo_S100000x1x128_S100000x1_d2 (by decide) P u).trans ?_
  rw [constant_apply, Ideal.ofBits_zero_f32, zero_add]
  refine Finset.sum_congr rfl fun q _ => ?_
  rw [mulf_apply, shapeCast_ab_a1b_apply, broadcastInDim_11b_a1b_apply]

end Cert.RefStages

end
-- ==== Proof.lean ====
/-
  A single-head graph-attention layer over 100000 nodes and 1600000 edges, its projection fused into a kernel,
  against the plain reference, at the extended reals.

  The kernel program projects the node features block by block on a grid of ten points (x · w, the round trip
  through bf16 being the identity at the extended reals and the matrix unit's zero accumulator adding nothing) and
  takes, in the same body, the two per-node attention logits as lane sums of the projected rows against the two
  attention rows; the reference computes the same three arrays on the host with one dot_general and two sums over
  the last axis. Index by index both are the same finite sums (Proof/Spec.lean; the kernel's blocks in
  Proof/KernelPayload.lean and Proof/KernelIdealBlocks.lean, the reference's stages in Proof/RefStages.lean).
  Everything after the projection — self-loops, the edge mask, the gathers of the logits, the leaky rectifier, the
  softmax over each node's incoming edges with its global shift, the weighted scatter-add and the bias — is the same
  straight line of host operations in both programs, carried as ONE function of the three arrays, the edge list and the
  bias (Proof/Tail.lean) and never opened: equal arguments give equal results, so no finiteness of the inputs is
  used. The three frames: each program runs to its end and writes only its own result buffers and the grid's three
  output arrays, none of which is an argument (Proof/KernelFrame.lean, Proof/KernelIdealFrame.lean, Proof/RefRun.lean).
  The idealized kernel program is the kernel program's own text read at the extended reals, so there is nothing to
  preserve.
-/
import proofs.«112865_j88656714924157_1_alg».proof.Defs
import proofs.«112865_j88656714924157_1_alg».proof.Proof.Gen.Kernel
import proofs.«112865_j88656714924157_1_alg».proof.Proof.Gen.KernelIdeal
import proofs.«112865_j88656714924157_1_alg».proof.Proof.Gen.ReferenceIdeal
import proofs.«112865_j88656714924157_1_alg».proof.Proof.Gen.Pre_finite_inputs
import proofs.«112865_j88656714924157_1_alg».proof.Proof.KernelFrame
import proofs.«112865_j88656714924157_1_alg».proof.Proof.KernelIdealResult
import proofs.«112865_j88656714924157_1_alg».proof.Proof.RefRun
import proofs.«112865_j88656714924157_1_alg».proof.Proof.RefStages
import Idealize.ShloMosaic.Adequacy
import Idealize.ShloMosaic.Init

noncomputable section

namespace Cert.Proof

open Idealize.ShloMosaic Idealize.ShloMosaic.TcCoe Idealize.SL.Sem Idealize.ShloMosaic.StableHlo

theorem frame_p : Cert.frame_Kernel := fun m ρ _ => Cert.Kernel.Frame.frame m ρ
theorem frame_pi : Cert.frame_KernelIdeal := fun m ρ _ => Cert.KernelIdeal.Frame.frame m ρ
theorem frame_ri : Cert.frame_ReferenceIdeal := fun m ρ _ => Cert.ReferenceIdeal.RefRun.frame (F := Ideal) m ρ

theorem preserves : Cert.preserves_Kernel_KernelIdeal := trivial

end Cert.Proof

namespace Cert.ReferenceIdeal.RefValue

open Cert.ReferenceIdeal Idealize.ShloMosaic Idealize.ShloMosaic.TcCoe Idealize.SL.Sem Idealize.ShloMosaic.StableHlo

/-- The reference's result buffer after its operations: the tail of the product x · w and of its two lane sums
    against the attention rows — the reference's first stages are those sums, index by index. -/
theorem ref_result (V : Valuation τ sig (Elt Ideal)) :
    after (Cert.ReferenceIdeal.RefRun.ops (F := Ideal)) V (main_v72 : DevRef τ sig)
      = Cert.KernelIdeal.Tail.tail (F := Ideal)
          (Cert.Spec.Gxp (V (main_arg0 : DevRef τ sig)) (V (main_arg2 : DevRef τ sig)))
          (Cert.Spec.Glogit (V (main_arg0 : DevRef τ sig)) (V (main_arg2 : DevRef τ sig)) (V (main_arg3 : DevRef τ sig)))
          (Cert.Spec.Glogit (V (main_arg0 : DevRef τ sig)) (V (main_arg2 : DevRef τ sig)) (V (main_arg4 : DevRef τ sig)))
          (V (main_arg1 : DevRef τ sig)) (V (main_arg5 : DevRef τ sig)) := by
  rw [Cert.ReferenceIdeal.RefRun.out_eq]
  unfold Cert.ReferenceIdeal.RefRun.logitR Cert.ReferenceIdeal.RefRun.xpR
  rw [Cert.RefStages.xpR_eq, Cert.RefStages.logitR_eq, Cert.RefStages.logitR_eq]

/-- The same at the launch contents of a memory. -/
theorem ref_result_at (m' : (ℓ : Loc nD τ sig) → Buf (Elt Ideal) ℓ) (c : Dev nD) :
    after (Cert.ReferenceIdeal.RefRun.ops (F := Ideal)) (launchContents m' c) (main_v72 : DevRef τ sig)
      = Cert.KernelIdeal.Tail.tail (F := Ideal)
          (Cert.Spec.Gxp (m' ((c.tc : Thread nD τ).loc main_arg0)) (m' ((c.tc : Thread nD τ).loc main_arg2)))
          (Cert.Spec.Glogit (m' ((c.tc : Thread nD τ).loc main_arg0)) (m' ((c.tc : Thread nD τ).loc main_arg2)) (m' ((c.tc : Thread nD τ).loc main_arg3)))
          (Cert.Spec.Glogit (m' ((c.tc : Thread nD τ).loc main_arg0)) (m' ((c.tc : Thread nD τ).loc main_arg2)) (m' ((c.tc : Thread nD τ).loc main_arg4)))
          (m' ((c.tc : Thread nD τ).loc main_arg1)) (m' ((c.tc : Thread nD τ).loc main_arg5)) :=
  ref_result (launchContents m' c)

end Cert.ReferenceIdeal.RefValue

namespace Cert.Proof

open Idealize.ShloMosaic Idealize.ShloMosaic.TcCoe Idealize.SL.Sem Idealize.ShloMosaic.StableHlo

set_option maxHeartbeats 1000000 in
/-- Both idealized programs end with the tail of the same three arrays, the edge list and the bias. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun r h c => ?_)
    (Cert.ReferenceIdeal.RefRun.run_main (F := Ideal) m' ρ')
  obtain ⟨e0, e1, e2, e3, e4, e5⟩ := hagree c
  refine ⟨(h c Cert.ReferenceIdeal.main_v72).trans ((Cert.ReferenceIdeal.RefValue.ref_result_at m' c).trans ?_),
    (h c Cert.ReferenceIdeal.main_arg0).trans (Cert.ReferenceIdeal.RefRun.arg0_eq _),
    (h c Cert.ReferenceIdeal.main_arg1).trans (Cert.ReferenceIdeal.RefRun.arg1_eq _),
    (h c Cert.ReferenceIdeal.main_arg2).trans (Cert.ReferenceIdeal.RefRun.arg2_eq _),
    (h c Cert.ReferenceIdeal.main_arg3).trans (Cert.ReferenceIdeal.RefRun.arg3_eq _),
    (h c Cert.ReferenceIdeal.main_arg4).trans (Cert.ReferenceIdeal.RefRun.arg4_eq _),
    (h c Cert.ReferenceIdeal.main_arg5).trans (Cert.ReferenceIdeal.RefRun.arg5_eq _)⟩
  unfold Cert.KernelIdeal.Result.result
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
